-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.truncf_extf.Statement Cert.KernelIdeal.S4096x2 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x168 : Shape := ⟨2, ![262144, 168]⟩
abbrev S84x168 : Shape := ⟨2, ![84, 168]⟩
abbrev S84 : Shape := ⟨1, ![84]⟩
abbrev S42x84 : Shape := ⟨2, ![42, 84]⟩
abbrev S42 : Shape := ⟨1, ![42]⟩
abbrev S21x42 : Shape := ⟨2, ![21, 42]⟩
abbrev S21 : Shape := ⟨1, ![21]⟩
abbrev S12x21 : Shape := ⟨2, ![12, 21]⟩
abbrev S12 : Shape := ⟨1, ![12]⟩
abbrev S10x12 : Shape := ⟨2, ![10, 12]⟩
abbrev S10 : Shape := ⟨1, ![10]⟩
abbrev S5x10 : Shape := ⟨2, ![5, 10]⟩
abbrev S5 : Shape := ⟨1, ![5]⟩
abbrev S2x5 : Shape := ⟨2, ![2, 5]⟩
abbrev S2 : Shape := ⟨1, ![2]⟩
abbrev S1x2 : Shape := ⟨2, ![1, 2]⟩
abbrev S1 : Shape := ⟨1, ![1]⟩
abbrev S_ : Shape := ⟨0, ![]⟩

class Facts : Prop where
  bcast_S_S262144x168 : S_.BroadcastsInDim S262144x168 (![] : Fin 0 → Fin S262144x168.rank)
  reducesTo_S262144x168_S_d0_1 : S262144x168.ReducesTo [0, 1] S_
  h_S_ : 0 < S_.numel
  bcast_S_S84x168 : S_.BroadcastsInDim S84x168 (![] : Fin 0 → Fin S84x168.rank)
  reducesTo_S84x168_S_d0_1 : S84x168.ReducesTo [0, 1] S_
  bcast_S_S84 : S_.BroadcastsInDim S84 (![] : Fin 0 → Fin S84.rank)
  reducesTo_S84_S_d0 : S84.ReducesTo [0] S_
  bcast_S_S42x84 : S_.BroadcastsInDim S42x84 (![] : Fin 0 → Fin S42x84.rank)
  reducesTo_S42x84_S_d0_1 : S42x84.ReducesTo [0, 1] S_
  bcast_S_S42 : S_.BroadcastsInDim S42 (![] : Fin 0 → Fin S42.rank)
  reducesTo_S42_S_d0 : S42.ReducesTo [0] S_
  bcast_S_S21x42 : S_.BroadcastsInDim S21x42 (![] : Fin 0 → Fin S21x42.rank)
  reducesTo_S21x42_S_d0_1 : S21x42.ReducesTo [0, 1] S_
  bcast_S_S21 : S_.BroadcastsInDim S21 (![] : Fin 0 → Fin S21.rank)
  reducesTo_S21_S_d0 : S21.ReducesTo [0] S_
  bcast_S_S12x21 : S_.BroadcastsInDim S12x21 (![] : Fin 0 → Fin S12x21.rank)
  reducesTo_S12x21_S_d0_1 : S12x21.ReducesTo [0, 1] S_
  bcast_S_S12 : S_.BroadcastsInDim S12 (![] : Fin 0 → Fin S12.rank)
  reducesTo_S12_S_d0 : S12.ReducesTo [0] S_
  bcast_S_S10x12 : S_.BroadcastsInDim S10x12 (![] : Fin 0 → Fin S10x12.rank)
  reducesTo_S10x12_S_d0_1 : S10x12.ReducesTo [0, 1] S_
  bcast_S_S10 : S_.BroadcastsInDim S10 (![] : Fin 0 → Fin S10.rank)
  reducesTo_S10_S_d0 : S10.ReducesTo [0] S_
  bcast_S_S5x10 : S_.BroadcastsInDim S5x10 (![] : Fin 0 → Fin S5x10.rank)
  reducesTo_S5x10_S_d0_1 : S5x10.ReducesTo [0, 1] S_
  bcast_S_S5 : S_.BroadcastsInDim S5 (![] : Fin 0 → Fin S5.rank)
  reducesTo_S5_S_d0 : S5.ReducesTo [0] S_
  bcast_S_S2x5 : S_.BroadcastsInDim S2x5 (![] : Fin 0 → Fin S2x5.rank)
  reducesTo_S2x5_S_d0_1 : S2x5.ReducesTo [0, 1] S_
  bcast_S_S2 : S_.BroadcastsInDim S2 (![] : Fin 0 → Fin S2.rank)
  reducesTo_S2_S_d0 : S2.ReducesTo [0] S_
  bcast_S_S1x2 : S_.BroadcastsInDim S1x2 (![] : Fin 0 → Fin S1x2.rank)
  reducesTo_S1x2_S_d0_1 : S1x2.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S2 .f32) (main_arg15 : FVec F S1x2 .f32) (main_arg16 : FVec F S1 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S1x2 .f32 := Host.absf main_arg15
  let main_cst_28 : FVec F S_ .f32 := constant S_ .f32 0x7F800000#32
  let main_v75 : FVec F S1x2 .f32 := broadcastInDim S1x2 ![] bcast_S_S1x2 main_cst_28
  let main_v76 : IVec S1x2 1 := cmpf .olt main_v74 main_v75
  let main_c_29 : IVec S_ 1 := constantI S_ 1 1#1
  let main_v77 : IVec S_ 1 := (fun x v => Host.reduce IntOp.andi x v reducesTo_S1x2_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S5x10 .f32) (main_arg12 : FVec F S5 .f32) (main_arg13 : FVec F S2x5 .f32) (main_arg14 : FVec F S2 .f32) (main_arg15 : FVec F S1x2 .f32) (main_arg16 : FVec F S1 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S5x10 .f32 := Host.absf main_arg11
  let main_cst_20 : FVec F S_ .f32 := constant S_ .f32 0x7F800000#32
  let main_v55 : FVec F S5x10 .f32 := broadcastInDim S5x10 ![] bcast_S_S5x10 main_cst_20
  let main_v56 : IVec S5x10 1 := cmpf .olt main_v54 main_v55
  let main_c_21 : IVec S_ 1 := constantI S_ 1 1#1
  let main_v57 : IVec S_ 1 := (fun x v => Host.reduce IntOp.andi x v reducesTo_S5x10_S_d0_1 h_S_) main_v56 main_c_21
  let main_v58 : IVec S_ 1 := andi main_v53 main_v57
  let main_v59 : FVec F S5 .f32 := Host.absf main_arg12
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_v64 : FVec F S2x5 .f32 := Host.absf main_arg13
  let main_cst_24 : FVec F S_ .f32 := constant S_ .f32 0x7F800000#32
  let main_v65 : FVec F S2x5 .f32 := broadcastInDim S2x5 ![] bcast_S_S2x5 main_cst_24
  let main_v66 : IVec S2x5 1 := cmpf .olt main_v64 main_v65
  let main_c_25 : IVec S_ 1 := constantI S_ 1 1#1
  let main_v67 : IVec S_ 1 := (fun x v => Host.reduce IntOp.andi x v reducesTo_S2x5_S_d0_1 h_S_) main_v66 main_c_25
  fn_part4 (F := F) main_arg14 main_arg15 main_arg16 main_v63 main_v67

def fn_part2 {F : FTy → Type} [FloatOps F] (main_arg7 : FVec F S12x21 .f32) (main_arg8 : FVec F S12 .f32) (main_arg9 : FVec F S10x12 .f32) (main_arg10 : FVec F S10 .f32) (main_arg11 : FVec F S5x10 .f32) (main_arg12 : FVec F S5 .f32) (main_arg13 : FVec F S2x5 .f32) (main_arg14 : FVec F S2 .f32) (main_arg15 : FVec F S1x2 .f32) (main_arg16 : FVec F S1 .f32) (main_v33 : IVec S_ 1) : IVec S_ 1 :=
  let main_v34 : FVec F S12x21 .f32 := Host.absf main_arg7
  let main_cst_12 : FVec F S_ .f32 := constant S_ .f32 0x7F800000#32
  let main_v35 : FVec F S12x21 .f32 := broadcastInDim S12x21 ![] bcast_S_S12x21 main_cst_12
  let main_v36 : IVec S12x21 1 := cmpf .olt main_v34 main_v35
  let main_c_13 : IVec S_ 1 := constantI S_ 1 1#1
  let main_v37 : IVec S_ 1 := (fun x v => Host.reduce IntOp.andi x v reducesTo_S12x21_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S10x12 .f32 := Host.absf main_arg9
  let main_cst_16 : FVec F S_ .f32 := constant S_ .f32 0x7F800000#32
  let main_v45 : FVec F S10x12 .f32 := broadcastInDim S10x12 ![] bcast_S_S10x12 main_cst_16
  let main_v46 : IVec S10x12 1 := cmpf .olt main_v44 main_v45
  let main_c_17 : IVec S_ 1 := constantI S_ 1 1#1
  let main_v47 : IVec S_ 1 := (fun x v => Host.reduce IntOp.andi x v reducesTo_S10x12_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_v48 main_v49 main_v50

def fn_part1 {F : FTy → Type} [FloatOps F] (main_arg4 : FVec F S42 .f32) (main_arg5 : FVec F S21x42 .f32) (main_arg6 : FVec F S21 .f32) (main_arg7 : FVec F S12x21 .f32) (main_arg8 : FVec F S12 .f32) (main_arg9 : FVec F S10x12 .f32) (main_arg10 : FVec F S10 .f32) (main_arg11 : FVec F S5x10 .f32) (main_arg12 : FVec F S5 .f32) (main_arg13 : FVec F S2x5 .f32) (main_arg14 : FVec F S2 .f32) (main_arg15 : FVec F S1x2 .f32) (main_arg16 : FVec F S1 .f32) (main_v13 : IVec S_ 1) (main_v16 : IVec S42x84 1) : IVec S_ 1 :=
  let main_c_5 : IVec S_ 1 := constantI S_ 1 1#1
  let main_v17 : IVec S_ 1 := (fun x v => Host.reduce IntOp.andi x v reducesTo_S42x84_S_d0_1 h_S_) main_v16 main_c_5
  let main_v18 : IVec S_ 1 := andi main_v13 main_v17
  let main_v19 : FVec F S42 .f32 := Host.absf main_arg4
  let main_cst_6 : FVec F S_ .f32 := constant S_ .f32 0x7F800000#32
  let main_v20 : FVec F S42 .f32 := broadcastInDim S42 ![] bcast_S_S42 main_cst_6
  let main_v21 : IVec S42 1 := cmpf .olt main_v19 main_v20
  let main_c_7 : IVec S_ 1 := constantI S_ 1 1#1
  let main_v22 : IVec S_ 1 := (fun x v => Host.reduce IntOp.andi x v reducesTo_S42_S_d0 h_S_) main_v21 main_c_7
  let main_v23 : IVec S_ 1 := andi main_v18 main_v22
  let main_v24 : FVec F S21x42 .f32 := Host.absf main_arg5
  let main_cst_8 : FVec F S_ .f32 := constant S_ .f32 0x7F800000#32
  let main_v25 : FVec F S21x42 .f32 := broadcastInDim S21x42 ![] bcast_S_S21x42 main_cst_8
  let main_v26 : IVec S21x42 1 := cmpf .olt main_v24 main_v25
  let main_c_9 : IVec S_ 1 := constantI S_ 1 1#1
  let main_v27 : IVec S_ 1 := (fun x v => Host.reduce IntOp.andi x v reducesTo_S21x42_S_d0_1 h_S_) main_v26 main_c_9
  let main_v28 : IVec S_ 1 := andi main_v23 main_v27
  let main_v29 : FVec F S21 .f32 := Host.absf main_arg6
  let main_cst_10 : FVec F S_ .f32 := constant S_ .f32 0x7F800000#32
  let main_v30 : FVec F S21 .f32 := broadcastInDim S21 ![] bcast_S_S21 main_cst_10
  let main_v31 : IVec S21 1 := cmpf .olt main_v29 main_v30
  let main_c_11 : IVec S_ 1 := constantI S_ 1 1#1
  let main_v32 : IVec S_ 1 := (fun x v => Host.reduce IntOp.andi x v reducesTo_S21_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S262144x168 .f32) (main_arg1 : FVec F S84x168 .f32) (main_arg2 : FVec F S84 .f32) (main_arg3 : FVec F S42x84 .f32) (main_arg4 : FVec F S42 .f32) (main_arg5 : FVec F S21x42 .f32) (main_arg6 : FVec F S21 .f32) (main_arg7 : FVec F S12x21 .f32) (main_arg8 : FVec F S12 .f32) (main_arg9 : FVec F S10x12 .f32) (main_arg10 : FVec F S10 .f32) (main_arg11 : FVec F S5x10 .f32) (main_arg12 : FVec F S5 .f32) (main_arg13 : FVec F S2x5 .f32) (main_arg14 : FVec F S2 .f32) (main_arg15 : FVec F S1x2 .f32) (main_arg16 : FVec F S1 .f32) : IVec S_ 1 :=
  let main_v0 : FVec F S262144x168 .f32 := Host.absf main_arg0
  let main_cst : FVec F S_ .f32 := constant S_ .f32 0x7F800000#32
  let main_v1 : FVec F S262144x168 .f32 := broadcastInDim S262144x168 ![] bcast_S_S262144x168 main_cst
  let main_v2 : IVec S262144x168 1 := cmpf .olt main_v0 main_v1
  let main_c : IVec S_ 1 := constantI S_ 1 1#1
  let main_v3 : IVec S_ 1 := (fun x v => Host.reduce IntOp.andi x v reducesTo_S262144x168_S_d0_1 h_S_) main_v2 main_c
  let main_v4 : FVec F S84x168 .f32 := Host.absf main_arg1
  let main_cst_0 : FVec F S_ .f32 := constant S_ .f32 0x7F800000#32
  let main_v5 : FVec F S84x168 .f32 := broadcastInDim S84x168 ![] bcast_S_S84x168 main_cst_0
  let main_v6 : IVec S84x168 1 := cmpf .olt main_v4 main_v5
  let main_c_1 : IVec S_ 1 := constantI S_ 1 1#1
  let main_v7 : IVec S_ 1 := (fun x v => Host.reduce IntOp.andi x v reducesTo_S84x168_S_d0_1 h_S_) main_v6 main_c_1
  let main_v8 : IVec S_ 1 := andi main_v3 main_v7
  let main_v9 : FVec F S84 .f32 := Host.absf main_arg2
  let main_cst_2 : FVec F S_ .f32 := constant S_ .f32 0x7F800000#32
  let main_v10 : FVec F S84 .f32 := broadcastInDim S84 ![] bcast_S_S84 main_cst_2
  let main_v11 : IVec S84 1 := cmpf .olt main_v9 main_v10
  let main_c_3 : IVec S_ 1 := constantI S_ 1 1#1
  let main_v12 : IVec S_ 1 := (fun x v => Host.reduce IntOp.andi x v reducesTo_S84_S_d0 h_S_) main_v11 main_c_3
  let main_v13 : IVec S_ 1 := andi main_v8 main_v12
  let main_v14 : FVec F S42x84 .f32 := Host.absf main_arg3
  let main_cst_4 : FVec F S_ .f32 := constant S_ .f32 0x7F800000#32
  let main_v15 : FVec F S42x84 .f32 := broadcastInDim S42x84 ![] bcast_S_S42x84 main_cst_4
  let main_v16 : IVec S42x84 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S262144x168 : Shape := ⟨2, ![262144, 168]⟩
abbrev S84x168 : Shape := ⟨2, ![84, 168]⟩
abbrev S84 : Shape := ⟨1, ![84]⟩
abbrev S42x84 : Shape := ⟨2, ![42, 84]⟩
abbrev S42 : Shape := ⟨1, ![42]⟩
abbrev S21x42 : Shape := ⟨2, ![21, 42]⟩
abbrev S21 : Shape := ⟨1, ![21]⟩
abbrev S12x21 : Shape := ⟨2, ![12, 21]⟩
abbrev S12 : Shape := ⟨1, ![12]⟩
abbrev S10x12 : Shape := ⟨2, ![10, 12]⟩
abbrev S10 : Shape := ⟨1, ![10]⟩
abbrev S5x10 : Shape := ⟨2, ![5, 10]⟩
abbrev S5 : Shape := ⟨1, ![5]⟩
abbrev S2x5 : Shape := ⟨2, ![2, 5]⟩
abbrev S2 : Shape := ⟨1, ![2]⟩
abbrev S1x2 : Shape := ⟨2, ![1, 2]⟩
abbrev S1 : Shape := ⟨1, ![1]⟩
abbrev S1x84 : Shape := ⟨2, ![1, 84]⟩
abbrev S1x42 : Shape := ⟨2, ![1, 42]⟩
abbrev S1x21 : Shape := ⟨2, ![1, 21]⟩
abbrev S1x12 : Shape := ⟨2, ![1, 12]⟩
abbrev S1x10 : Shape := ⟨2, ![1, 10]⟩
abbrev S1x5 : Shape := ⟨2, ![1, 5]⟩
abbrev S1x1 : Shape := ⟨2, ![1, 1]⟩
abbrev S262144x1 : Shape := ⟨2, ![262144, 1]⟩
abbrev S4096x168 : Shape := ⟨2, ![4096, 168]⟩
abbrev S4096x1 : Shape := ⟨2, ![4096, 1]⟩
abbrev S4096x84 : Shape := ⟨2, ![4096, 84]⟩
abbrev S4096x42 : Shape := ⟨2, ![4096, 42]⟩
abbrev S4096x21 : Shape := ⟨2, ![4096, 21]⟩
abbrev S4096x12 : Shape := ⟨2, ![4096, 12]⟩
abbrev S4096x10 : Shape := ⟨2, ![4096, 10]⟩
abbrev S4096x5 : Shape := ⟨2, ![4096, 5]⟩
abbrev S4096x2 : Shape := ⟨2, ![4096, 2]⟩
abbrev S4096 : Shape := ⟨1, ![4096]⟩

abbrev nBuf : Space → Nat
  | .hbm => 26
  | .vmem => 20
  | .smem => 0
  | _ => 0

abbrev bufTy : (tb : Table) → Fin (tcTables nBuf tb) → BufTy
  | .hbm, ⟨0, _⟩ => ⟨S262144x168, .f32⟩
  | .hbm, ⟨1, _⟩ => ⟨S84x168, .f32⟩
  | .hbm, ⟨2, _⟩ => ⟨S84, .f32⟩
  | .hbm, ⟨3, _⟩ => ⟨S42x84, .f32⟩
  | .hbm, ⟨4, _⟩ => ⟨S42, .f32⟩
  | .hbm, ⟨5, _⟩ => ⟨S21x42, .f32⟩
  | .hbm, ⟨6, _⟩ => ⟨S21, .f32⟩
  | .hbm, ⟨7, _⟩ => ⟨S12x21, .f32⟩
  | .hbm, ⟨8, _⟩ => ⟨S12, .f32⟩
  | .hbm, ⟨9, _⟩ => ⟨S10x12, .f32⟩
  | .hbm, ⟨10, _⟩ => ⟨S10, .f32⟩
  | .hbm, ⟨11, _⟩ => ⟨S5x10, .f32⟩
  | .hbm, ⟨12, _⟩ => ⟨S5, .f32⟩
  | .hbm, ⟨13, _⟩ => ⟨S2x5, .f32⟩
  | .hbm, ⟨14, _⟩ => ⟨S2, .f32⟩
  | .hbm, ⟨15, _⟩ => ⟨S1x2, .f32⟩
  | .hbm, ⟨16, _⟩ => ⟨S1, .f32⟩
  | .hbm, ⟨17, _⟩ => ⟨S1x84, .f32⟩
  | .hbm, ⟨18, _⟩ => ⟨S1x42, .f32⟩
  | .hbm, ⟨19, _⟩ => ⟨S1x21, .f32⟩
  | .hbm, ⟨20, _⟩ => ⟨S1x12, .f32⟩
  | .hbm, ⟨21, _⟩ => ⟨S1x10, .f32⟩
  | .hbm, ⟨22, _⟩ => ⟨S1x5, .f32⟩
  | .hbm, ⟨23, _⟩ => ⟨S1x2, .f32⟩
  | .hbm, ⟨24, _⟩ => ⟨S1x1, .f32⟩
  | .hbm, ⟨25, _⟩ => ⟨S262144x1, .f32⟩
  | .local _ .vmem, ⟨0, _⟩ => ⟨S4096x168, .f32⟩
  | .local _ .vmem, ⟨1, _⟩ => ⟨S4096x168, .f32⟩
  | .local _ .vmem, ⟨2, _⟩ => ⟨S84x168, .f32⟩
  | .local _ .vmem, ⟨3, _⟩ => ⟨S42x84, .f32⟩
  | .local _ .vmem, ⟨4, _⟩ => ⟨S21x42, .f32⟩
  | .local _ .vmem, ⟨5, _⟩ => ⟨S12x21, .f32⟩
  | .local _ .vmem, ⟨6, _⟩ => ⟨S10x12, .f32⟩
  | .local _ .vmem, ⟨7, _⟩ => ⟨S5x10, .f32⟩
  | .local _ .vmem, ⟨8, _⟩ => ⟨S2x5, .f32⟩
  | .local _ .vmem, ⟨9, _⟩ => ⟨S1x2, .f32⟩
  | .local _ .vmem, ⟨10, _⟩ => ⟨S1x84, .f32⟩
  | .local _ .vmem, ⟨11, _⟩ => ⟨S1x42, .f32⟩
  | .local _ .vmem, ⟨12, _⟩ => ⟨S1x21, .f32⟩
  | .local _ .vmem, ⟨13, _⟩ => ⟨S1x12, .f32⟩
  | .local _ .vmem, ⟨14, _⟩ => ⟨S1x10, .f32⟩
  | .local _ .vmem, ⟨15, _⟩ => ⟨S1x5, .f32⟩
  | .local _ .vmem, ⟨16, _⟩ => ⟨S1x2, .f32⟩
  | .local _ .vmem, ⟨17, _⟩ => ⟨S1x1, .f32⟩
  | .local _ .vmem, ⟨18, _⟩ => ⟨S4096x1, .f32⟩
  | .local _ .vmem, ⟨19, _⟩ => ⟨S4096x1, .f32⟩
  | _, _ => ⟨S262144x168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S42x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S21x42 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x21 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x84 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x42 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x21 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x12 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x10 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x5 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4096x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S84_S1x84 : S84.ShapeCasts S1x84
  shapeCasts_S42_S1x42 : S42.ShapeCasts S1x42
  shapeCasts_S21_S1x21 : S21.ShapeCasts S1x21
  shapeCasts_S12_S1x12 : S12.ShapeCasts S1x12
  shapeCasts_S10_S1x10 : S10.ShapeCasts S1x10
  shapeCasts_S5_S1x5 : S5.ShapeCasts S1x5
  shapeCasts_S2_S1x2 : S2.ShapeCasts S1x2
  shapeCasts_S1_S1x1 : S1.ShapeCasts S1x1
  inb_S4096x168_S4096x168_0_0 : ∀ a, (![0, 0] : Fin 2 → Nat) a + S4096x168.size a ≤ S4096x168.size a
  h_S4096x168 : 0 < S4096x168.numel
  bitsLt_bf16_f32 : FTy.bits .bf16 < FTy.bits .f32
  inb_S1x84_S1x84_0_0 : ∀ a, (![0, 0] : Fin 2 → Nat) a + S1x84.size a ≤ S1x84.size a
  h_S1x84 : 0 < S1x84.numel
  shapeCasts_S1x84_S1x84 : S1x84.ShapeCasts S1x84
  inb_S84x168_S84x168_0_0 : ∀ a, (![0, 0] : Fin 2 → Nat) a + S84x168.size a ≤ S84x168.size a
  h_S84x168 : 0 < S84x168.numel
  broadcasts_S1x84_S4096x84 : S1x84.Broadcasts S4096x84
  inb_S1x42_S1x42_0_0 : ∀ a, (![0, 0] : Fin 2 → Nat) a + S1x42.size a ≤ S1x42.size a
  h_S1x42 : 0 < S1x42.numel
  shapeCasts_S1x42_S1x42 : S1x42.ShapeCasts S1x42
  inb_S42x84_S42x84_0_0 : ∀ a, (![0, 0] : Fin 2 → Nat) a + S42x84.size a ≤ S42x84.size a
  h_S42x84 : 0 < S42x84.numel
  broadcasts_S1x42_S4096x42 : S1x42.Broadcasts S4096x42
  inb_S1x21_S1x21_0_0 : ∀ a, (![0, 0] : Fin 2 → Nat) a + S1x21.size a ≤ S1x21.size a
  h_S1x21 : 0 < S1x21.numel
  shapeCasts_S1x21_S1x21 : S1x21.ShapeCasts S1x21
  inb_S21x42_S21x42_0_0 : ∀ a, (![0, 0] : Fin 2 → Nat) a + S21x42.size a ≤ S21x42.size a
  h_S21x42 : 0 < S21x42.numel
  broadcasts_S1x21_S4096x21 : S1x21.Broadcasts S4096x21
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S12x21_S12x21_0_0 : ∀ a, (![0, 0] : Fin 2 → Nat) a + S12x21.size a ≤ S12x21.size a
  h_S12x21 : 0 < S12x21.numel
  broadcasts_S1x12_S4096x12 : S1x12.Broadcasts S4096x12
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S10x12_S10x12_0_0 : ∀ a, (![0, 0] : Fin 2 → Nat) a + S10x12.size a ≤ S10x12.size a
  h_S10x12 : 0 < S10x12.numel
  broadcasts_S1x10_S4096x10 : S1x10.Broadcasts S4096x10
  inb_S1x5_S1x5_0_0 : ∀ a, (![0, 0] : Fin 2 → Nat) a + S1x5.size a ≤ S1x5.size a
  h_S1x5 : 0 < S1x5.numel
  shapeCasts_S1x5_S1x5 : S1x5.ShapeCasts S1x5
  inb_S5x10_S5x10_0_0 : ∀ a, (![0, 0] : Fin 2 → Nat) a + S5x10.size a ≤ S5x10.size a
  h_S5x10 : 0 < S5x10.numel
  broadcasts_S1x5_S4096x5 : S1x5.Broadcasts S4096x5
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S2x5_S2x5_0_0 : ∀ a, (![0, 0] : Fin 2 → Nat) a + S2x5.size a ≤ S2x5.size a
  h_S2x5 : 0 < S2x5.numel
  broadcasts_S1x2_S4096x2 : S1x2.Broadcasts S4096x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4096x2_S4096 : S4096x2.Reduces [1] S4096
  shapeCasts_S4096_S4096x1 : S4096.ShapeCasts S4096x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S4096x168_S84x168_S4096x84_1_1_0_0_n_n_wf : DotDims.WF S4096x168 S84x168 S4096x84 [1] [1] [0] [0] [] []
  dot_S4096x84_S42x84_S4096x42_1_1_0_0_n_n_wf : DotDims.WF S4096x84 S42x84 S4096x42 [1] [1] [0] [0] [] []
  dot_S4096x42_S21x42_S4096x21_1_1_0_0_n_n_wf : DotDims.WF S4096x42 S21x42 S4096x21 [1] [1] [0] [0] [] []
  dot_S4096x21_S12x21_S4096x12_1_1_0_0_n_n_wf : DotDims.WF S4096x21 S12x21 S4096x12 [1] [1] [0] [0] [] []
  dot_S4096x12_S10x12_S4096x10_1_1_0_0_n_n_wf : DotDims.WF S4096x12 S10x12 S4096x10 [1] [1] [0] [0] [] []
  dot_S4096x10_S5x10_S4096x5_1_1_0_0_n_n_wf : DotDims.WF S4096x10 S5x10 S4096x5 [1] [1] [0] [0] [] []
  dot_S4096x5_S2x5_S4096x2_1_1_0_0_n_n_wf : DotDims.WF S4096x5 S2x5 S4096x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x168.size a ≤ S262144x168.size a
  hwx0_0 : ∀ i : grid0.Coords, EltTy.bits .f32 = 32 ∨ (Rect.block (s := S262144x168) S4096x168.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x168.size a ≤ S84x168.size a
  hwx0_1 : ∀ i : grid0.Coords, EltTy.bits .f32 = 32 ∨ (Rect.block (s := S84x168) S84x168.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S42x84.size a ≤ S42x84.size a
  hwx0_2 : ∀ i : grid0.Coords, EltTy.bits .f32 = 32 ∨ (Rect.block (s := S42x84) S42x84.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S21x42.size a ≤ S21x42.size a
  hwx0_3 : ∀ i : grid0.Coords, EltTy.bits .f32 = 32 ∨ (Rect.block (s := S21x42) S21x42.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x21.size a ≤ S12x21.size a
  hwx0_4 : ∀ i : grid0.Coords, EltTy.bits .f32 = 32 ∨ (Rect.block (s := S12x21) S12x21.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x12.size a ≤ S10x12.size a
  hwx0_5 : ∀ i : grid0.Coords, EltTy.bits .f32 = 32 ∨ (Rect.block (s := S10x12) S10x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x10.size a ≤ S5x10.size a
  hwx0_6 : ∀ i : grid0.Coords, EltTy.bits .f32 = 32 ∨ (Rect.block (s := S5x10) S5x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x5.size a ≤ S2x5.size a
  hwx0_7 : ∀ i : grid0.Coords, EltTy.bits .f32 = 32 ∨ (Rect.block (s := S2x5) S2x5.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x84.size a ≤ S1x84.size a
  hwx0_9 : ∀ i : grid0.Coords, EltTy.bits .f32 = 32 ∨ (Rect.block (s := S1x84) S1x84.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x42.size a ≤ S1x42.size a
  hwx0_10 : ∀ i : grid0.Coords, EltTy.bits .f32 = 32 ∨ (Rect.block (s := S1x42) S1x42.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x21.size a ≤ S1x21.size a
  hwx0_11 : ∀ i : grid0.Coords, EltTy.bits .f32 = 32 ∨ (Rect.block (s := S1x21) S1x21.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x12.size a ≤ S1x12.size a
  hwx0_12 : ∀ i : grid0.Coords, EltTy.bits .f32 = 32 ∨ (Rect.block (s := S1x12) S1x12.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x10.size a ≤ S1x10.size a
  hwx0_13 : ∀ i : grid0.Coords, EltTy.bits .f32 = 32 ∨ (Rect.block (s := S1x10) S1x10.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x5.size a ≤ S1x5.size a
  hwx0_14 : ∀ i : grid0.Coords, EltTy.bits .f32 = 32 ∨ (Rect.block (s := S1x5) S1x5.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x2.size a ≤ S1x2.size a
  hwx0_15 : ∀ i : grid0.Coords, EltTy.bits .f32 = 32 ∨ (Rect.block (s := S1x2) S1x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4096x1.size a ≤ S262144x1.size a
  hwx0_17 : ∀ i : grid0.Coords, EltTy.bits .f32 = 32 ∨ (Rect.block (s := S262144x1) S4096x1.size (cc0_transform_17 i) (hinb0_17 i)).WholeWords (EltTy.packing .f32)

variable [Facts₀]

def dot_S4096x168_S84x168_S4096x84_1_1_0_0_n_n : DotDims S4096x168 S84x168 S4096x84 where
  lhsContracting := [1]
  rhsContracting := [1]
  lhsNonContracting := [0]
  rhsNonContracting := [0]
  lhsBatch := []
  rhsBatch := []
  wf := dot_S4096x168_S84x168_S4096x84_1_1_0_0_n_n_wf
def dot_S4096x84_S42x84_S4096x42_1_1_0_0_n_n : DotDims S4096x84 S42x84 S4096x42 where
  lhsContracting := [1]
  rhsContracting := [1]
  lhsNonContracting := [0]
  rhsNonContracting := [0]
  lhsBatch := []
  rhsBatch := []
  wf := dot_S4096x84_S42x84_S4096x42_1_1_0_0_n_n_wf
def dot_S4096x42_S21x42_S4096x21_1_1_0_0_n_n : DotDims S4096x42 S21x42 S4096x21 where
  lhsContracting := [1]
  rhsContracting := [1]
  lhsNonContracting := [0]
  rhsNonContracting := [0]
  lhsBatch := []
  rhsBatch := []
  wf := dot_S4096x42_S21x42_S4096x21_1_1_0_0_n_n_wf
def dot_S4096x21_S12x21_S4096x12_1_1_0_0_n_n : DotDims S4096x21 S12x21 S4096x12 where
  lhsContracting := [1]
  rhsContracting := [1]
  lhsNonContracting := [0]
  rhsNonContracting := [0]
  lhsBatch := []
  rhsBatch := []
  wf := dot_S4096x21_S12x21_S4096x12_1_1_0_0_n_n_wf
def dot_S4096x12_S10x12_S4096x10_1_1_0_0_n_n : DotDims S4096x12 S10x12 S4096x10 where
  lhsContracting := [1]
  rhsContracting := [1]
  lhsNonContracting := [0]
  rhsNonContracting := [0]
  lhsBatch := []
  rhsBatch := []
  wf := dot_S4096x12_S10x12_S4096x10_1_1_0_0_n_n_wf
def dot_S4096x10_S5x10_S4096x5_1_1_0_0_n_n : DotDims S4096x10 S5x10 S4096x5 where
  lhsContracting := [1]
  rhsContracting := [1]
  lhsNonContracting := [0]
  rhsNonContracting := [0]
  lhsBatch := []
  rhsBatch := []
  wf := dot_S4096x10_S5x10_S4096x5_1_1_0_0_n_n_wf
def dot_S4096x5_S2x5_S4096x2_1_1_0_0_n_n : DotDims S4096x5 S2x5 S4096x2 where
  lhsContracting := [1]
  rhsContracting := [1]
  lhsNonContracting := [0]
  rhsNonContracting := [0]
  lhsBatch := []
  rhsBatch := []
  wf := dot_S4096x5_S2x5_S4096x2_1_1_0_0_n_n_wf

abbrev win0_0 : Pipeline.Window sig grid0 :=
  Pipeline.Window.ofSpec (Memref.whole main_arg0) S4096x168.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S84x168.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S42x84.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S21x42.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S12x21.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S10x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S5x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S2x5.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x84.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x42.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x21.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x12.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S1x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x5.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S1x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v8) S4096x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x168 : Shape := ⟨2, ![262144, 168]⟩
abbrev S84x168 : Shape := ⟨2, ![84, 168]⟩
abbrev S84 : Shape := ⟨1, ![84]⟩
abbrev S42x84 : Shape := ⟨2, ![42, 84]⟩
abbrev S42 : Shape := ⟨1, ![42]⟩
abbrev S21x42 : Shape := ⟨2, ![21, 42]⟩
abbrev S21 : Shape := ⟨1, ![21]⟩
abbrev S12x21 : Shape := ⟨2, ![12, 21]⟩
abbrev S12 : Shape := ⟨1, ![12]⟩
abbrev S10x12 : Shape := ⟨2, ![10, 12]⟩
abbrev S10 : Shape := ⟨1, ![10]⟩
abbrev S5x10 : Shape := ⟨2, ![5, 10]⟩
abbrev S5 : Shape := ⟨1, ![5]⟩
abbrev S2x5 : Shape := ⟨2, ![2, 5]⟩
abbrev S2 : Shape := ⟨1, ![2]⟩
abbrev S1x2 : Shape := ⟨2, ![1, 2]⟩
abbrev S1 : Shape := ⟨1, ![1]⟩
abbrev S168x84 : Shape := ⟨2, ![168, 84]⟩
abbrev S262144x84 : Shape := ⟨2, ![262144, 84]⟩
abbrev S1x84 : Shape := ⟨2, ![1, 84]⟩
abbrev S_ : Shape := ⟨0, ![]⟩
abbrev S84x42 : Shape := ⟨2, ![84, 42]⟩
abbrev S262144x42 : Shape := ⟨2, ![262144, 42]⟩
abbrev S1x42 : Shape := ⟨2, ![1, 42]⟩
abbrev S42x21 : Shape := ⟨2, ![42, 21]⟩
abbrev S262144x21 : Shape := ⟨2, ![262144, 21]⟩
abbrev S1x21 : Shape := ⟨2, ![1, 21]⟩
abbrev S21x12 : Shape := ⟨2, ![21, 12]⟩
abbrev S262144x12 : Shape := ⟨2, ![262144, 12]⟩
abbrev S1x12 : Shape := ⟨2, ![1, 12]⟩
abbrev S12x10 : Shape := ⟨2, ![12, 10]⟩
abbrev S262144x10 : Shape := ⟨2, ![262144, 10]⟩
abbrev S1x10 : Shape := ⟨2, ![1, 10]⟩
abbrev S10x5 : Shape := ⟨2, ![10, 5]⟩
abbrev S262144x5 : Shape := ⟨2, ![262144, 5]⟩
abbrev S1x5 : Shape := ⟨2, ![1, 5]⟩
abbrev S5x2 : Shape := ⟨2, ![5, 2]⟩
abbrev S262144x2 : Shape := ⟨2, ![262144, 2]⟩
abbrev S2x1 : Shape := ⟨2, ![2, 1]⟩
abbrev S262144x1 : Shape := ⟨2, ![262144, 1]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S262144x168, .f32⟩
  | .hbm, ⟨1, _⟩ => ⟨S84x168, .f32⟩
  | .hbm, ⟨2, _⟩ => ⟨S84, .f32⟩
  | .hbm, ⟨3, _⟩ => ⟨S42x84, .f32⟩
  | .hbm, ⟨4, _⟩ => ⟨S42, .f32⟩
  | .hbm, ⟨5, _⟩ => ⟨S21x42, .f32⟩
  | .hbm, ⟨6, _⟩ => ⟨S21, .f32⟩
  | .hbm, ⟨7, _⟩ => ⟨S12x21, .f32⟩
  | .hbm, ⟨8, _⟩ => ⟨S12, .f32⟩
  | .hbm, ⟨9, _⟩ => ⟨S10x12, .f32⟩
  | .hbm, ⟨10, _⟩ => ⟨S10, .f32⟩
  | .hbm, ⟨11, _⟩ => ⟨S5x10, .f32⟩
  | .hbm, ⟨12, _⟩ => ⟨S5, .f32⟩
  | .hbm, ⟨13, _⟩ => ⟨S2x5, .f32⟩
  | .hbm, ⟨14, _⟩ => ⟨S2, .f32⟩
  | .hbm, ⟨15, _⟩ => ⟨S1x2, .f32⟩
  | .hbm, ⟨16, _⟩ => ⟨S1, .f32⟩
  | .hbm, ⟨17, _⟩ => ⟨S168x84, .f32⟩
  | .hbm, ⟨18, _⟩ => ⟨S262144x84, .f32⟩
  | .hbm, ⟨19, _⟩ => ⟨S1x84, .f32⟩
  | .hbm, ⟨20, _⟩ => ⟨S262144x84, .f32⟩
  | .hbm, ⟨21, _⟩ => ⟨S262144x84, .f32⟩
  | .hbm, ⟨22, _⟩ => ⟨S_, .f32⟩
  | .hbm, ⟨23, _⟩ => ⟨S262144x84, .f32⟩
  | .hbm, ⟨24, _⟩ => ⟨S262144x84, .f32⟩
  | .hbm, ⟨25, _⟩ => ⟨S84x42, .f32⟩
  | .hbm, ⟨26, _⟩ => ⟨S262144x42, .f32⟩
  | .hbm, ⟨27, _⟩ => ⟨S1x42, .f32⟩
  | .hbm, ⟨28, _⟩ => ⟨S262144x42, .f32⟩
  | .hbm, ⟨29, _⟩ => ⟨S262144x42, .f32⟩
  | .hbm, ⟨30, _⟩ => ⟨S_, .f32⟩
  | .hbm, ⟨31, _⟩ => ⟨S262144x42, .f32⟩
  | .hbm, ⟨32, _⟩ => ⟨S262144x42, .f32⟩
  | .hbm, ⟨33, _⟩ => ⟨S42x21, .f32⟩
  | .hbm, ⟨34, _⟩ => ⟨S262144x21, .f32⟩
  | .hbm, ⟨35, _⟩ => ⟨S1x21, .f32⟩
  | .hbm, ⟨36, _⟩ => ⟨S262144x21, .f32⟩
  | .hbm, ⟨37, _⟩ => ⟨S262144x21, .f32⟩
  | .hbm, ⟨38, _⟩ => ⟨S_, .f32⟩
  | .hbm, ⟨39, _⟩ => ⟨S262144x21, .f32⟩
  | .hbm, ⟨40, _⟩ => ⟨S262144x21, .f32⟩
  | .hbm, ⟨41, _⟩ => ⟨S21x12, .f32⟩
  | .hbm, ⟨42, _⟩ => ⟨S262144x12, .f32⟩
  | .hbm, ⟨43, _⟩ => ⟨S1x12, .f32⟩
  | .hbm, ⟨44, _⟩ => ⟨S262144x12, .f32⟩
  | .hbm, ⟨45, _⟩ => ⟨S262144x12, .f32⟩
  | .hbm, ⟨46, _⟩ => ⟨S_, .f32⟩
  | .hbm, ⟨47, _⟩ => ⟨S262144x12, .f32⟩
  | .hbm, ⟨48, _⟩ => ⟨S262144x12, .f32⟩
  | .hbm, ⟨49, _⟩ => ⟨S12x10, .f32⟩
  | .hbm, ⟨50, _⟩ => ⟨S262144x10, .f32⟩
  | .hbm, ⟨51, _⟩ => ⟨S1x10, .f32⟩
  | .hbm, ⟨52, _⟩ => ⟨S262144x10, .f32⟩
  | .hbm, ⟨53, _⟩ => ⟨S262144x10, .f32⟩
  | .hbm, ⟨54, _⟩ => ⟨S_, .f32⟩
  | .hbm, ⟨55, _⟩ => ⟨S262144x10, .f32⟩
  | .hbm, ⟨56, _⟩ => ⟨S262144x10, .f32⟩
  | .hbm, ⟨57, _⟩ => ⟨S10x5, .f32⟩
  | .hbm, ⟨58, _⟩ => ⟨S262144x5, .f32⟩
  | .hbm, ⟨59, _⟩ => ⟨S1x5, .f32⟩
  | .hbm, ⟨60, _⟩ => ⟨S262144x5, .f32⟩
  | .hbm, ⟨61, _⟩ => ⟨S262144x5, .f32⟩
  | .hbm, ⟨62, _⟩ => ⟨S_, .f32⟩
  | .hbm, ⟨63, _⟩ => ⟨S262144x5, .f32⟩
  | .hbm, ⟨64, _⟩ => ⟨S262144x5, .f32⟩
  | .hbm, ⟨65, _⟩ => ⟨S5x2, .f32⟩
  | .hbm, ⟨66, _⟩ => ⟨S262144x2, .f32⟩
  | .hbm, ⟨67, _⟩ => ⟨S1x2, .f32⟩
  | .hbm, ⟨68, _⟩ => ⟨S262144x2, .f32⟩
  | .hbm, ⟨69, _⟩ => ⟨S262144x2, .f32⟩
  | .hbm, ⟨70, _⟩ => ⟨S_, .f32⟩
  | .hbm, ⟨71, _⟩ => ⟨S262144x2, .f32⟩
  | .hbm, ⟨72, _⟩ => ⟨S262144x2, .f32⟩
  | .hbm, ⟨73, _⟩ => ⟨S2x1, .f32⟩
  | .hbm, ⟨74, _⟩ => ⟨S262144x1, .f32⟩
  | .hbm, ⟨75, _⟩ => ⟨S1x1, .f32⟩
  | .hbm, ⟨76, _⟩ => ⟨S262144x1, .f32⟩
  | .hbm, ⟨77, _⟩ => ⟨S262144x1, .f32⟩
  | .hbm, ⟨78, _⟩ => ⟨S262144x1, .f32⟩
  | .hbm, ⟨79, _⟩ => ⟨S262144x1, .f32⟩
  | .hbm, ⟨80, _⟩ => ⟨S_, .f32⟩
  | .hbm, ⟨81, _⟩ => ⟨S262144x1, .f32⟩
  | .hbm, ⟨82, _⟩ => ⟨S262144x1, .f32⟩
  | .hbm, ⟨83, _⟩ => ⟨S_, .f32⟩
  | .hbm, ⟨84, _⟩ => ⟨S262144x1, .f32⟩
  | .hbm, ⟨85, _⟩ => ⟨S262144x1, .f32⟩
  | _, _ => ⟨S262144x168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_call1_cst : Ref sig .tc := ⟨.hbm, 30, rfl⟩
abbrev main_call1_v0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call2_cst : Ref sig .tc := ⟨.hbm, 38, rfl⟩
abbrev main_call2_v0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call3_cst : Ref sig .tc := ⟨.hbm, 46, rfl⟩
abbrev main_call3_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call4_cst : Ref sig .tc := ⟨.hbm, 54, rfl⟩
abbrev main_call4_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call5_cst : Ref sig .tc := ⟨.hbm, 62, rfl⟩
abbrev main_call5_v0 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call6_cst : Ref sig .tc := ⟨.hbm, 70, rfl⟩
abbrev main_call6_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst : Ref sig .tc := ⟨.hbm, 80, rfl⟩
abbrev main_v49 : Ref sig .tc := ⟨.hbm, 81, rfl⟩
abbrev main_v50 : Ref sig .tc := ⟨.hbm, 82, rfl⟩
abbrev main_cst_0 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  transposes_S84x168_S168x84_1_0 : S84x168.Transposes [1, 0] S168x84
  bcast_S84_S1x84_1 : S84.BroadcastsInDim S1x84 (![1] : Fin 1 → Fin S1x84.rank)
  bcast_S1x84_S262144x84_0_1 : S1x84.BroadcastsInDim S262144x84 (![0, 1] : Fin 2 → Fin S262144x84.rank)
  bcast_S_S262144x84 : S_.BroadcastsInDim S262144x84 (![] : Fin 0 → Fin S262144x84.rank)
  transposes_S42x84_S84x42_1_0 : S42x84.Transposes [1, 0] S84x42
  bcast_S42_S1x42_1 : S42.BroadcastsInDim S1x42 (![1] : Fin 1 → Fin S1x42.rank)
  bcast_S1x42_S262144x42_0_1 : S1x42.BroadcastsInDim S262144x42 (![0, 1] : Fin 2 → Fin S262144x42.rank)
  bcast_S_S262144x42 : S_.BroadcastsInDim S262144x42 (![] : Fin 0 → Fin S262144x42.rank)
  transposes_S21x42_S42x21_1_0 : S21x42.Transposes [1, 0] S42x21
  bcast_S21_S1x21_1 : S21.BroadcastsInDim S1x21 (![1] : Fin 1 → Fin S1x21.rank)
  bcast_S1x21_S262144x21_0_1 : S1x21.BroadcastsInDim S262144x21 (![0, 1] : Fin 2 → Fin S262144x21.rank)
  bcast_S_S262144x21 : S_.BroadcastsInDim S262144x21 (![] : Fin 0 → Fin S262144x21.rank)
  transposes_S12x21_S21x12_1_0 : S12x21.Transposes [1, 0] S21x12
  bcast_S12_S1x12_1 : S12.BroadcastsInDim S1x12 (![1] : Fin 1 → Fin S1x12.rank)
  bcast_S1x12_S262144x12_0_1 : S1x12.BroadcastsInDim S262144x12 (![0, 1] : Fin 2 → Fin S262144x12.rank)
  bcast_S_S262144x12 : S_.BroadcastsInDim S262144x12 (![] : Fin 0 → Fin S262144x12.rank)
  transposes_S10x12_S12x10_1_0 : S10x12.Transposes [1, 0] S12x10
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  bcast_S_S262144x10 : S_.BroadcastsInDim S262144x10 (![] : Fin 0 → Fin S262144x10.rank)
  transposes_S5x10_S10x5_1_0 : S5x10.Transposes [1, 0] S10x5
  bcast_S5_S1x5_1 : S5.BroadcastsInDim S1x5 (![1] : Fin 1 → Fin S1x5.rank)
  bcast_S1x5_S262144x5_0_1 : S1x5.BroadcastsInDim S262144x5 (![0, 1] : Fin 2 → Fin S262144x5.rank)
  bcast_S_S262144x5 : S_.BroadcastsInDim S262144x5 (![] : Fin 0 → Fin S262144x5.rank)
  transposes_S2x5_S5x2_1_0 : S2x5.Transposes [1, 0] S5x2
  bcast_S2_S1x2_1 : S2.BroadcastsInDim S1x2 (![1] : Fin 1 → Fin S1x2.rank)
  bcast_S1x2_S262144x2_0_1 : S1x2.BroadcastsInDim S262144x2 (![0, 1] : Fin 2 → Fin S262144x2.rank)
  bcast_S_S262144x2 : S_.BroadcastsInDim S262144x2 (![] : Fin 0 → Fin S262144x2.rank)
  transposes_S1x2_S2x1_1_0 : S1x2.Transposes [1, 0] S2x1
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  bcast_S_S262144x1 : S_.BroadcastsInDim S262144x1 (![] : Fin 0 → Fin S262144x1.rank)
  dot_S262144x168_S168x84_S262144x84_1_0_0_1_n_n_wf : DotDims.WF S262144x168 S168x84 S262144x84 [1] [0] [0] [1] [] []
  dot_S262144x84_S84x42_S262144x42_1_0_0_1_n_n_wf : DotDims.WF S262144x84 S84x42 S262144x42 [1] [0] [0] [1] [] []
  dot_S262144x42_S42x21_S262144x21_1_0_0_1_n_n_wf : DotDims.WF S262144x42 S42x21 S262144x21 [1] [0] [0] [1] [] []
  dot_S262144x21_S21x12_S262144x12_1_0_0_1_n_n_wf : DotDims.WF S262144x21 S21x12 S262144x12 [1] [0] [0] [1] [] []
  dot_S262144x12_S12x10_S262144x10_1_0_0_1_n_n_wf : DotDims.WF S262144x12 S12x10 S262144x10 [1] [0] [0] [1] [] []
  dot_S262144x10_S10x5_S262144x5_1_0_0_1_n_n_wf : DotDims.WF S262144x10 S10x5 S262144x5 [1] [0] [0] [1] [] []
  dot_S262144x5_S5x2_S262144x2_1_0_0_1_n_n_wf : DotDims.WF S262144x5 S5x2 S262144x2 [1] [0] [0] [1] [] []
  dot_S262144x2_S2x1_S262144x1_1_0_0_1_n_n_wf : DotDims.WF S262144x2 S2x1 S262144x1 [1] [0] [0] [1] [] []

variable [Facts₀]

def dot_S262144x168_S168x84_S262144x84_1_0_0_1_n_n : DotDims S262144x168 S168x84 S262144x84 where
  lhsContracting := [1]
  rhsContracting := [0]
  lhsNonContracting := [0]
  rhsNonContracting := [1]
  lhsBatch := []
  rhsBatch := []
  wf := dot_S262144x168_S168x84_S262144x84_1_0_0_1_n_n_wf
def dot_S262144x84_S84x42_S262144x42_1_0_0_1_n_n : DotDims S262144x84 S84x42 S262144x42 where
  lhsContracting := [1]
  rhsContracting := [0]
  lhsNonContracting := [0]
  rhsNonContracting := [1]
  lhsBatch := []
  rhsBatch := []
  wf := dot_S262144x84_S84x42_S262144x42_1_0_0_1_n_n_wf
def dot_S262144x42_S42x21_S262144x21_1_0_0_1_n_n : DotDims S262144x42 S42x21 S262144x21 where
  lhsContracting := [1]
  rhsContracting := [0]
  lhsNonContracting := [0]
  rhsNonContracting := [1]
  lhsBatch := []
  rhsBatch := []
  wf := dot_S262144x42_S42x21_S262144x21_1_0_0_1_n_n_wf
def dot_S262144x21_S21x12_S262144x12_1_0_0_1_n_n : DotDims S262144x21 S21x12 S262144x12 where
  lhsContracting := [1]
  rhsContracting := [0]
  lhsNonContracting := [0]
  rhsNonContracting := [1]
  lhsBatch := []
  rhsBatch := []
  wf := dot_S262144x21_S21x12_S262144x12_1_0_0_1_n_n_wf
def dot_S262144x12_S12x10_S262144x10_1_0_0_1_n_n : DotDims S262144x12 S12x10 S262144x10 where
  lhsContracting := [1]
  rhsContracting := [0]
  lhsNonContracting := [0]
  rhsNonContracting := [1]
  lhsBatch := []
  rhsBatch := []
  wf := dot_S262144x12_S12x10_S262144x10_1_0_0_1_n_n_wf
def dot_S262144x10_S10x5_S262144x5_1_0_0_1_n_n : DotDims S262144x10 S10x5 S262144x5 where
  lhsContracting := [1]
  rhsContracting := [0]
  lhsNonContracting := [0]
  rhsNonContracting := [1]
  lhsBatch := []
  rhsBatch := []
  wf := dot_S262144x10_S10x5_S262144x5_1_0_0_1_n_n_wf
def dot_S262144x5_S5x2_S262144x2_1_0_0_1_n_n : DotDims S262144x5 S5x2 S262144x2 where
  lhsContracting := [1]
  rhsContracting := [0]
  lhsNonContracting := [0]
  rhsNonContracting := [1]
  lhsBatch := []
  rhsBatch := []
  wf := dot_S262144x5_S5x2_S262144x2_1_0_0_1_n_n_wf
def dot_S262144x2_S2x1_S262144x1_1_0_0_1_n_n : DotDims S262144x2 S2x1 S262144x1 where
  lhsContracting := [1]
  rhsContracting := [0]
  lhsNonContracting := [0]
  rhsNonContracting := [1]
  lhsBatch := []
  rhsBatch := []
  wf := dot_S262144x2_S2x1_S262144x1_1_0_0_1_n_n_wf

class Facts : Prop extends Facts₀ where

variable [Facts]
-- ==== Proof.LibDenseRows.lean ====
/-
  Dense layers on the extended reals, row by row.

  A dense layer sends a row vector `h` of length `k` to the vector whose entry `j` is `∑ c, h c · W j c + b j` — the
  weight matrix `W` is `n × k`, one row per output entry — and a rectified layer takes the positive part of each
  entry. The matrix unit computes such a layer for all rows of an `m × k` array at once: its product of the `m × k`
  array with the `n × k` weights, the right operand contracted on its LAST axis, into the zero accumulator holds at
  entry `(a, j)` the sum over the contracted position `c` of `A[a,c] · W[j,c]`; adding the bias kept as a row
  `[1, n]` spread over the `m` rows and taking the maximum with the zero splat gives, at `(a, j)`, the rectified
  layer of row `a`. So every row of the result depends on the same row of the operand only.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseRows

open Idealize.ShloMosaic Idealize.ShloMosaic.ValueIdx

/-! ## The layers, on one row -/

/-- A dense layer on one row: entry `j` is `∑ c, h c · W j c + b j`. -/
def dense {k n : Nat} (W : Fin n → Fin k → EReal) (b : Fin n → EReal) (h : Fin k → EReal) : Fin n → EReal :=
  fun j => (∑ c : Fin k, h c * W j c) + b j

/-- A rectified dense layer on one row: the positive part of each entry of the dense layer. -/
def reluDense {k n : Nat} (W : Fin n → Fin k → EReal) (b : Fin n → EReal) (h : Fin k → EReal) : Fin n → EReal :=
  fun j => max (dense W b h j) 0

/-- The layers respect equality of the incoming row. -/
theorem dense_congr {k n : Nat} (W : Fin n → Fin k → EReal) (b : Fin n → EReal) {h h' : Fin k → EReal}
    (e : ∀ c, h c = h' c) (j : Fin n) : dense W b h j = dense W b h' j := by
  rw [show h = h' from funext e]

/-- The rectified layers respect equality of the incoming row. -/
theorem reluDense_congr {k n : Nat} (W : Fin n → Fin k → EReal) (b : Fin n → EReal) {h h' : Fin k → EReal}
    (e : ∀ c, h c = h' c) (j : Fin n) : reluDense W b h j = reluDense W b h' j := by
  rw [show h = h' from funext e]

/-! ## The product with the right operand contracted on its last axis -/

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contracted position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contracted position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product into the zero accumulator at an entry**: `∑ c, A[a,c] · B[j,c]`, at the ideal values, whatever the
    operands' formats and the precision key. -/
theorem matmul_rows_zero_apply {φ₁ φ₂ : FTy} (prec : Option ContractPrecision)
    (A : FVec Ideal ⟨2, ![m, k]⟩ φ₁) (B : FVec Ideal ⟨2, ![n, k]⟩ φ₂) (a : Fin m) (j : Fin n) :
    FloatOps.matmul (DotDims.transposedRhs m k n) prec A B (constant ⟨2, ![m, n]⟩ .f32 0x00000000#32) (ix2 a j)
      = ∑ c : Fin k, A (ix2 a c) * B (ix2 j c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a j) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a j) ((contrEquiv1 (DotDims.transposedRhs m k n) k rfl rfl).symm c) = ix2 j c :=
    funext fun ax => Fin.ext (by
      match ax with
      | ⟨0, _⟩ => exact rhs_row _ _
      | ⟨1, _⟩ => exact (rhs_col _ _).trans hc)
  rw [el, er]

/-! ## A rectified layer computed for all rows at once -/

/-- The product into zero, plus the bias row spread over the rows, rectified against the zero splat: at `(a, j)` the
    rectified dense layer of row `a` of the left operand, with the weights' row `j` and the bias' entry `j`. -/
theorem relu_rows_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hb : (⟨2, ![1, n]⟩ : Shape).Broadcasts ⟨2, ![m, n]⟩) (a : Fin m) (j : Fin n) :
    maximumf (addf (matmul (DotDims.transposedRhs m k n) prec v W (constant ⟨2, ![m, n]⟩ .f32 0x00000000#32))
        (broadcastTo ⟨2, ![m, n]⟩ bias hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  show max (FloatOps.matmul (DotDims.transposedRhs m k n) prec v W (constant ⟨2, ![m, n]⟩ .f32 0x00000000#32) (ix2 a j)
      + broadcastTo ⟨2, ![m, n]⟩ bias hb (ix2 a j)) (Ideal.ofBits .f32 0x00000000#32) = _
  rw [matmul_rows_zero_apply, broadcastTo_1b_ab_apply, Ideal.ofBits_zero_f32]
  rfl

/-- The same with the bias row first cast to its own shape (an identity cast). -/
theorem relu_rows_cast_apply {φ₁ φ₂ : FTy} (prec : Option ContractPrecision)
    (v : FVec Ideal ⟨2, ![m, k]⟩ φ₁) (W : FVec Ideal ⟨2, ![n, k]⟩ φ₂) (bias : FVec Ideal ⟨2, ![1, n]⟩ .f32)
    (hsc : (⟨2, ![1, n]⟩ : Shape).ShapeCasts ⟨2, ![1, n]⟩) (hb : (⟨2, ![1, n]⟩ : Shape).Broadcasts ⟨2, ![m, n]⟩)
    (a : Fin m) (j : Fin n) :
    maximumf (addf (matmul (DotDims.transposedRhs m k n) prec v W (constant ⟨2, ![m, n]⟩ .f32 0x00000000#32))
        (broadcastTo ⟨2, ![m, n]⟩ (shapeCast ⟨2, ![1, n]⟩ bias hsc) hb))
      (broadcast ⟨2, ![m, n]⟩ (Scalar.ofBits .f32 0x00000000#32)) (ix2 a j)
      = reluDense (fun j c => W (ix2 j c)) (fun j => bias (ix2 (0 : Fin 1) j)) (fun c => v (ix2 a c)) j := by
  rw [shapeCast_self]
  exact relu_rows_apply prec v W bias hb a j

end Cert.DenseRows

end
-- ==== Proof.MlpSpec.lean ====
/-
  The network this certificate is about, as one function of its seventeen arrays.

  Each row of the input, a vector of 168 numbers, goes through seven rectified dense layers of widths
  84, 42, 21, 12, 10, 5, 2 and a last dense layer of width 1, whose value is put through the logistic function
  `z ↦ 1 / (1 + e^(-z))`. Row `r` of the result depends on row `r` of the input only. Everything is read on the
  extended reals.
-/
import proofs.«114216_j49091476194058_2_alg».proof.Proof.LibDenseRows

noncomputable section

namespace Cert.Mlp

open Idealize.ShloMosaic Idealize.ShloMosaic.ValueIdx Cert.DenseRows

/-- A weight array as its rows. -/
def mat {n k : Nat} (W : (⟨2, ![n, k]⟩ : Shape).Idx → EReal) : Fin n → Fin k → EReal := fun j c => W (ix2 j c)

/-- A bias vector's entries. -/
def vec {n : Nat} (b : (⟨1, ![n]⟩ : Shape).Idx → EReal) : Fin n → EReal := fun j => b (ix1 j)

/-- A bias kept as a row `[1, n]`: its entries. -/
def brow {n : Nat} (b : (⟨2, ![1, n]⟩ : Shape).Idx → EReal) : Fin n → EReal := fun j => b (ix2 (0 : Fin 1) j)

/-- Row `r` of a rank-2 array. -/
def row {a b : Nat} (x : (⟨2, ![a, b]⟩ : Shape).Idx → EReal) (r : Fin a) : Fin b → EReal := fun c => x (ix2 r c)

/-- The first three rectified layers on one row. -/
def hidden3 (W1 : Fin 84 → Fin 168 → EReal) (b1 : Fin 84 → EReal) (W2 : Fin 42 → Fin 84 → EReal) (b2 : Fin 42 → EReal)
    (W3 : Fin 21 → Fin 42 → EReal) (b3 : Fin 21 → EReal) (h : Fin 168 → EReal) : Fin 21 → EReal :=
  reluDense W3 b3 (reluDense W2 b2 (reluDense W1 b1 h))

/-- The next four rectified layers on one row. -/
def hidden4 (W4 : Fin 12 → Fin 21 → EReal) (b4 : Fin 12 → EReal) (W5 : Fin 10 → Fin 12 → EReal) (b5 : Fin 10 → EReal)
    (W6 : Fin 5 → Fin 10 → EReal) (b6 : Fin 5 → EReal) (W7 : Fin 2 → Fin 5 → EReal) (b7 : Fin 2 → EReal)
    (h : Fin 21 → EReal) : Fin 2 → EReal :=
  reluDense W7 b7 (reluDense W6 b6 (reluDense W5 b5 (reluDense W4 b4 h)))

/-- The whole network on one row: the seven rectified layers, the last dense layer, the logistic function. -/
def score (W1 : Fin 84 → Fin 168 → EReal) (b1 : Fin 84 → EReal) (W2 : Fin 42 → Fin 84 → EReal) (b2 : Fin 42 → EReal)
    (W3 : Fin 21 → Fin 42 → EReal) (b3 : Fin 21 → EReal) (W4 : Fin 12 → Fin 21 → EReal) (b4 : Fin 12 → EReal)
    (W5 : Fin 10 → Fin 12 → EReal) (b5 : Fin 10 → EReal) (W6 : Fin 5 → Fin 10 → EReal) (b6 : Fin 5 → EReal)
    (W7 : Fin 2 → Fin 5 → EReal) (b7 : Fin 2 → EReal) (W8 : Fin 1 → Fin 2 → EReal) (b8 : Fin 1 → EReal)
    (h : Fin 168 → EReal) : Fin 1 → EReal :=
  fun u => Ideal.logistic (dense W8 b8 (hidden4 W4 b4 W5 b5 W6 b6 W7 b7 (hidden3 W1 b1 W2 b2 W3 b3 h)) u)

/-- The result array as one function of the argument arrays: at `(r, u)` the network's value on row `r` of `x`. -/
def G (x : (⟨2, ![262144, 168]⟩ : Shape).Idx → EReal)
    (W1 : (⟨2, ![84, 168]⟩ : Shape).Idx → EReal) (b1 : (⟨1, ![84]⟩ : Shape).Idx → EReal)
    (W2 : (⟨2, ![42, 84]⟩ : Shape).Idx → EReal) (b2 : (⟨1, ![42]⟩ : Shape).Idx → EReal)
    (W3 : (⟨2, ![21, 42]⟩ : Shape).Idx → EReal) (b3 : (⟨1, ![21]⟩ : Shape).Idx → EReal)
    (W4 : (⟨2, ![12, 21]⟩ : Shape).Idx → EReal) (b4 : (⟨1, ![12]⟩ : Shape).Idx → EReal)
    (W5 : (⟨2, ![10, 12]⟩ : Shape).Idx → EReal) (b5 : (⟨1, ![10]⟩ : Shape).Idx → EReal)
    (W6 : (⟨2, ![5, 10]⟩ : Shape).Idx → EReal) (b6 : (⟨1, ![5]⟩ : Shape).Idx → EReal)
    (W7 : (⟨2, ![2, 5]⟩ : Shape).Idx → EReal) (b7 : (⟨1, ![2]⟩ : Shape).Idx → EReal)
    (W8 : (⟨2, ![1, 2]⟩ : Shape).Idx → EReal) (b8 : (⟨1, ![1]⟩ : Shape).Idx → EReal) :
    (⟨2, ![262144, 1]⟩ : Shape).Idx → EReal :=
  fun i => score (mat W1) (vec b1) (mat W2) (vec b2) (mat W3) (vec b3) (mat W4) (vec b4) (mat W5) (vec b5)
    (mat W6) (vec b6) (mat W7) (vec b7) (mat W8) (vec b8) (row x (i 0)) (i 1)

/-- The binary word of the float 1 is the number 1. -/
theorem one_f32 : Ideal.ofBits .f32 0x3F800000#32 = 1 := by
  simp [Ideal.ofBits, Ideal.ieee, -EReal.coe_mul]; norm_num

end Cert.Mlp

end
-- ==== Proof.LibAxisReads.lean ====
/-
  Reading reductions over one axis, the keep-dimension layouts around them, and a one-axis matrix product at an
  entry — general facts about vectors on the extended reals, stated over literal ranks with symbolic extents.

  * A reduced index with the dropped coordinate put back is the index with that coordinate in its place
    (rank 2, either axis; rank 3, the last two axes).
  * A maximum or a sum along one axis of a rank-2 vector, read at a row or a column, is the fold of `max` from the
    starting word, or the sum, over that row or column.
  * The host's reduction with a maximum body along the last or the middle axis of a rank-3 array, read at an entry, is
    the same fold over that axis.
  * A vector kept as a column ([a] → [a, 1] → [a, b]) or as a row ([b] → [1, b] → [a, b]) reads back the entry of
    its row or column.
  * A matrix product into the zero accumulator that contracts ONE axis, read at an entry, is the sum over that
    axis of the products of the two operands read where the dimension numbers send the entry and the position.
-/
import Idealize.ShloMosaic.PureOps.Ideal.Laws
import Idealize.ShloMosaic.Lib.ValueIdx
import Idealize.ShloMosaic.Lib.ValueLayout
import Idealize.ShloMosaic.Lib.Pipeline.Value

noncomputable section

namespace Cert.AxisReads

open Idealize.ShloMosaic Idealize.ShloMosaic.ValueIdx

/-! ## The dropped coordinate put back -/

/-- Rank 2, the second axis dropped: row `i` with column `k` put back is (i, k). -/
theorem lift2_axis1 {a b : Nat} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Rank 2, the first axis dropped: column `j` with row `k` put back is (k, j). -/
theorem lift2_axis0 {a b : Nat} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- Rank 3, the last axis dropped: (t, i) with `k` put back is (t, i, k). -/
theorem lift3_axis2 {n a b : Nat} (h : (⟨3, ![n, a, b]⟩ : Shape).Reduces [2] (⟨2, ![n, a]⟩ : Shape)) (t : Fin n) (i : Fin a)
    (k : Fin ((⟨3, ![n, a, b]⟩ : Shape).size 2)) : h.lift (ix2 t i) k = ix3 t i (⟨k.val, k.isLt⟩ : Fin b) := by
  funext c; apply Fin.ext
  fin_cases c <;> rfl

/-- Rank 3, the middle axis dropped: (t, j) with `k` put back is (t, k, j). -/
theorem lift3_axis1 {n a b : Nat} (h : (⟨3, ![n, a, b]⟩ : Shape).Reduces [1] (⟨2, ![n, b]⟩ : Shape)) (t : Fin n) (j : Fin b)
    (k : Fin ((⟨3, ![n, a, b]⟩ : Shape).size 1)) : h.lift (ix2 t j) k = ix3 t (⟨k.val, k.isLt⟩ : Fin a) j := by
  funext c; apply Fin.ext
  fin_cases c <;> rfl

/-! ## A maximum and a sum along one axis of a rank-2 vector -/

/-- The maximum along the rows: at row `i`, the fold of `max` from the starting word over the row's entries. -/
theorem rowMax_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.maximumf.neutral .f32 hφ) (i : Fin a) :
    multiReduction .maximumf [1] (⟨1, ![a]⟩ : Shape) src acc h hφ hacc (ix1 i)
      = (Finset.univ : Finset (Fin b)).fold max (Ideal.ofBits .f32 acc) fun j => src (ix2 i j) := by
  refine (Ideal.multiReduction_maximumf_single src acc h hφ hacc (ix1 i)).trans ?_
  have hf : (src ∘ h.lift (ix1 i)) = fun j : Fin b => src (ix2 i j) :=
    funext fun k => congrArg src (lift2_axis1 h i k)
  exact congrArg (fun f => Finset.fold max (Ideal.ofBits .f32 acc) f (Finset.univ : Finset (Fin b))) hf

/-- The maximum along the columns: at column `j`, the fold of `max` from the starting word over the column's entries. -/
theorem colMax_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] (⟨1, ![b]⟩ : Shape) src acc h hφ hacc (ix1 j)
      = (Finset.univ : Finset (Fin a)).fold max (Ideal.ofBits .f32 acc) fun i => src (ix2 i j) := by
  refine (Ideal.multiReduction_maximumf_single src acc h hφ hacc (ix1 j)).trans ?_
  have hf : (src ∘ h.lift (ix1 j)) = fun i : Fin a => src (ix2 i j) :=
    funext fun k => congrArg src (lift2_axis0 h j k)
  exact congrArg (fun f => Finset.fold max (Ideal.ofBits .f32 acc) f (Finset.univ : Finset (Fin a))) hf

/-- The sum along the rows: at row `i`, the sum of the row's entries. -/
theorem rowSum_apply {a b : Nat} (src : FVec Ideal (⟨2, ![a, b]⟩ : Shape) .f32) (acc : BitVec 32)
    (h : (⟨2, ![a, b]⟩ : Shape).Reduces [1] (⟨1, ![a]⟩ : Shape)) (hφ : FKind.Formats .f32)
    (hacc : acc = FKind.add.neutral .f32 hφ) (i : Fin a) :
    multiReduction .add [1] (⟨1, ![a]⟩ : Shape) src acc h hφ hacc (ix1 i) = ∑ j : Fin b, src (ix2 i j) := by
  refine (Ideal.multiReduction_add_single src acc h hφ hacc (ix1 i)).trans ?_
  exact Finset.sum_congr rfl fun k _ => congrArg src (lift2_axis1 h i k)

/-- The sum along the columns: at column `j`, the sum of the column's entries. -/
theorem colSum_apply {a b : Nat} (src : FVec Ideal (⟨2, ![a, b]⟩ : Shape) .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] (⟨1, ![b]⟩ : Shape) src acc h hφ hacc (ix1 j) = ∑ i : Fin a, src (ix2 i j) := by
  refine (Ideal.multiReduction_add_single src acc h hφ hacc (ix1 j)).trans ?_
  exact Finset.sum_congr rfl fun k _ => congrArg src (lift2_axis0 h j k)

/-! ## The host's maximum along one axis of a rank-3 array -/

/-- The host's reduction with a maximum body over the LAST axis, at (t, i): the fold of `max` from the initial value over
    the entries (t, i, ·). -/
theorem hostMax3_last_apply {n a b : Nat} (x : FVec Ideal (⟨3, ![n, a, b]⟩ : Shape) .f32) (init : FVec Ideal (⟨0, ![]⟩ : Shape) .f32)
    (h' : (⟨3, ![n, a, b]⟩ : Shape).ReducesTo [2] (⟨2, ![n, a]⟩ : Shape)) (hu : 0 < (⟨0, ![]⟩ : Shape).numel) (t : Fin n) (i : Fin a) :
    Host.reduce FloatOps.maximumf x init h' hu (ix2 t i)
      = (Finset.univ : Finset (Fin b)).fold max (init (Shape.Idx.first hu)) fun k => x (ix3 t i k) := by
  have h : (⟨3, ![n, a, b]⟩ : Shape).Reduces [2] (⟨2, ![n, a]⟩ : Shape) := ⟨h'.1, Nat.zero_lt_two, h'.2⟩
  refine (Host.reduce_eq_fold_single FloatOps.maximumf x init h' h hu (ix2 t i)).trans ?_
  have hf : (x ∘ h.lift (ix2 t i)) = fun k : Fin b => x (ix3 t i k) := funext fun k => congrArg x (lift3_axis2 h t i k)
  exact congrArg (fun f => Finset.fold max (init (Shape.Idx.first hu)) f (Finset.univ : Finset (Fin b))) hf

/-- The host's reduction with a maximum body over the MIDDLE axis, at (t, j): the fold of `max` from the initial value
    over the entries (t, ·, j). -/
theorem hostMax3_mid_apply {n a b : Nat} (x : FVec Ideal (⟨3, ![n, a, b]⟩ : Shape) .f32) (init : FVec Ideal (⟨0, ![]⟩ : Shape) .f32)
    (h' : (⟨3, ![n, a, b]⟩ : Shape).ReducesTo [1] (⟨2, ![n, b]⟩ : Shape)) (hu : 0 < (⟨0, ![]⟩ : Shape).numel) (t : Fin n) (j : Fin b) :
    Host.reduce FloatOps.maximumf x init h' hu (ix2 t j)
      = (Finset.univ : Finset (Fin a)).fold max (init (Shape.Idx.first hu)) fun k => x (ix3 t k j) := by
  have h : (⟨3, ![n, a, b]⟩ : Shape).Reduces [1] (⟨2, ![n, b]⟩ : Shape) := ⟨h'.1, Nat.zero_lt_two, h'.2⟩
  refine (Host.reduce_eq_fold_single FloatOps.maximumf x init h' h hu (ix2 t j)).trans ?_
  have hf : (x ∘ h.lift (ix2 t j)) = fun k : Fin a => x (ix3 t k j) := funext fun k => congrArg x (lift3_axis1 h t j k)
  exact congrArg (fun f => Finset.fold max (init (Shape.Idx.first hu)) f (Finset.univ : Finset (Fin a))) hf

/-! ## A vector kept as a column, or as a row -/

variable {α : Type}

/-- An `[a]` vector cast to the column `[a, 1]` reads, at `(i, u)`, entry `i`. -/
theorem shapeCast_a_a1_apply {a : Nat} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector kept as a column and spread over the columns reads its own entry `i` all along row `i`. -/
theorem column_spread_apply {a b : Nat} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

/-- A vector kept as a row and spread over the rows reads its own entry `j` all along column `j`. -/
theorem row_spread_apply {a b : Nat} (x : (⟨1, ![b]⟩ : Shape).Idx → α) (h : (⟨1, ![b]⟩ : Shape).ShapeCasts ⟨2, ![1, b]⟩)
    (h' : (⟨2, ![1, b]⟩ : Shape).Broadcasts ⟨2, ![a, b]⟩) (i : Fin a) (j : Fin b) :
    broadcastTo ⟨2, ![a, b]⟩ (shapeCast ⟨2, ![1, b]⟩ x h) h' (ix2 i j) = x (ix1 j) :=
  (broadcastTo_1b_ab_apply _ h' i j).trans (shapeCast_a_1a_apply x h 0 j)

/-! ## A one-axis matrix product into zero, at an entry -/

/-- With ONE contracted axis of extent `n`, the product into the zero accumulator at entry `j` is the sum over
    `k : Fin n` of the operands' products, each operand read where the dimension numbers send `j` and position `k`
    (`hl`, `hr`: what those reads are). -/
theorem matmul_zero_single {sl sr so : Shape} {φ₁ φ₂ : FTy} (D : DotDims sl sr so) (n : Nat) (hrk : D.contr.rank = 1)
    (hs : D.contr.size ⟨0, by omega⟩ = n) (lhs : FVec Ideal sl φ₁) (rhs : FVec Ideal sr φ₂) (j : so.Idx)
    (L R : Fin n → EReal)
    (hl : ∀ k : Fin n, lhs (D.lhsIdx j ((contrEquiv1 D n hrk hs).symm k)) = L k)
    (hr : ∀ k : Fin n, rhs (D.rhsIdx j ((contrEquiv1 D n hrk hs).symm k)) = R k) :
    matmul D none lhs rhs (constant so .f32 0x00000000#32) j = ∑ k : Fin n, L k * R k := by
  show FloatOps.matmul D none lhs rhs (constant so .f32 0x00000000#32) j = _
  rw [Ideal.matmul_constant_zero_apply, ← Equiv.sum_comp (contrEquiv1 D n hrk hs).symm]
  exact Finset.sum_congr rfl fun k _ => by rw [hl k, hr k]

end Cert.AxisReads

end
-- ==== Proof.KernelRows.lean ====
/-
  The kernel body's arithmetic, read at one entry.

  The body computes, for a block of 4096 rows at once, the seven rectified layers (matrix products of the block with
  each weight array contracted on its last axis, a bias row spread over the rows, the maximum with zero) and the last
  layer as a product with the weight row spread over the rows followed by a sum along each row, a bias, and the
  logistic function. Here each of these values is read at an entry `(a, j)`: it is the corresponding layer of ROW `a`
  of the block — changes of float format being the identity on the extended reals.
-/
import proofs.«114216_j49091476194058_2_alg».proof.Proof.Gen.KernelIdeal.Skeleton
import proofs.«114216_j49091476194058_2_alg».proof.Proof.MlpSpec
import proofs.«114216_j49091476194058_2_alg».proof.Proof.LibAxisReads

noncomputable section

namespace Cert.KernelIdeal.Rows

open Cert.KernelIdeal Cert.KernelIdeal.Gen Idealize.ShloMosaic Idealize.ShloMosaic.ValueIdx Cert.DenseRows Cert.Mlp

/-- Layers one to three of the block, at `(a, j)`: the three rectified layers of the block's row `a`. -/
theorem pay2_apply (v0 : Vec Ideal S4096x168 .f32) (v2 : Vec Ideal S1x84 .f32) (v4 : Vec Ideal S84x168 .f32)
    (v12 : Vec Ideal S1x42 .f32) (v14 : Vec Ideal S42x84 .f32) (v22 : Vec Ideal S1x21 .f32) (v24 : Vec Ideal S21x42 .f32)
    (a : Fin 4096) (j : Fin 21) :
    k0_pay2 v0 v2 v4 v12 v14 v22 v24 (ix2 a j)
      = hidden3 (mat v4) (brow v2) (mat v14) (brow v12) (mat v24) (brow v22) (row v0 a) j := by
  unfold k0_pay2
  refine (relu_rows_cast_apply (m := 4096) (k := 42) (n := 21) none _ v24 v22 _ _ a j).trans ?_
  refine reluDense_congr _ _ (fun c => ?_) j
  refine (relu_rows_cast_apply (m := 4096) (k := 84) (n := 42) none _ v14 v12 _ _ a c).trans ?_
  refine reluDense_congr _ _ (fun c' => ?_) c
  exact relu_rows_cast_apply (m := 4096) (k := 168) (n := 84) none _ v4 v2 _ _ a c'

/-- Layers four to seven of the block, at `(a, j)`: the four rectified layers of row `a` of the third layer's value. -/
theorem pay4_apply (v31 : FVec Ideal S4096x21 .bf16) (v33 : FVec Ideal S1x12 .f32) (v34 : Vec Ideal S12x21 .f32)
    (v42 : Vec Ideal S1x10 .f32) (v44 : Vec Ideal S10x12 .f32) (v52 : Vec Ideal S1x5 .f32) (v54 : Vec Ideal S5x10 .f32)
    (v62 : Vec Ideal S1x2 .f32) (v64 : Vec Ideal S2x5 .f32) (a : Fin 4096) (j : Fin 2) :
    k0_pay4 v31 v33 v34 v42 v44 v52 v54 v62 v64 (ix2 a j)
      = hidden4 (mat v34) (brow v33) (mat v44) (brow v42) (mat v54) (brow v52) (mat v64) (brow v62) (row v31 a) j := by
  unfold k0_pay4
  refine (relu_rows_cast_apply (m := 4096) (k := 5) (n := 2) none _ v64 v62 _ _ a j).trans ?_
  refine reluDense_congr _ _ (fun c => ?_) j
  refine (relu_rows_cast_apply (m := 4096) (k := 10) (n := 5) none _ v54 v52 _ _ a c).trans ?_
  refine reluDense_congr _ _ (fun c' => ?_) c
  refine (relu_rows_cast_apply (m := 4096) (k := 12) (n := 10) none _ v44 v42 _ _ a c').trans ?_
  refine reluDense_congr _ _ (fun c'' => ?_) c'
  exact relu_rows_apply (m := 4096) (k := 21) (n := 12) none v31 v34 v33 _ a c''

end Cert.KernelIdeal.Rows

end
-- ==== Proof.KernelBlock.lean ====
/-
  What the kernel body leaves in its output block, read at one entry.

  The block of 4096 output rows is stored once, whole: at `(a, u)` it holds the logistic function of the last dense
  layer — a product with the weight row spread over the rows, summed along the row, plus the bias — of the seven
  rectified layers of row `a` of the input block. So it is the network's value on that row.
-/
import proofs.«114216_j49091476194058_2_alg».proof.Proof.Gen.KernelIdeal.Frame
import proofs.«114216_j49091476194058_2_alg».proof.Proof.KernelRows

noncomputable section

namespace Cert.KernelIdeal.Block

open Cert.KernelIdeal Cert.KernelIdeal.Gen Cert.KernelIdeal.Rows Idealize.ShloMosaic Idealize.ShloMosaic.ValueIdx
open Cert.DenseRows Cert.Mlp

/-- The offset of a whole-buffer rectangle. -/
theorem hz : (![0, 0] : Fin 2 → Nat) = fun _ => 0 := funext fun a => by fin_cases a <;> rfl

/-- The last layer and the logistic function, at `(a, u)`: of row `a` of the seventh layer's value. -/
theorem pay1_apply (v70 : FVec Ideal S4096x2 .f32) (v72 : Vec Ideal S1x1 .f32) (v74 : Vec Ideal S1x2 .f32)
    (a : Fin 4096) (u : Fin 1) :
    k0_pay1 v70 v72 v74 (ix2 a u) = Ideal.logistic (dense (mat v74) (brow v72) (row v70 a) u) := by
  have hu : u = 0 := Subsingleton.elim _ _
  subst hu
  unfold k0_pay1
  show Ideal.logistic (_ + _) = Ideal.logistic (_ + _)
  refine congrArg Ideal.logistic (congrArg₂ (· + ·) ?_ ?_)
  · refine (AxisReads.shapeCast_a_a1_apply _ _ a 0).trans ?_
    refine (AxisReads.rowSum_apply (a := 4096) (b := 2) _ _ _ _ _ a).trans ?_
    refine Finset.sum_congr rfl fun c _ => ?_
    show v70 (ix2 a c) * broadcastTo S4096x2 v74 broadcasts_S1x2_S4096x2 (ix2 a c) = _
    rw [broadcastTo_1b_ab_apply]
    rfl
  · show broadcastTo S4096x1 (shapeCast S1x1 v72 shapeCasts_S1x1_S1x1) broadcasts_S1x1_S4096x1 (ix2 a 0) = _
    rw [broadcastTo_1b_ab_apply, shapeCast_self]
    rfl

/-- The output block after the body, at `(a, u)`: the network's value on row `a` of the input block, with the
    weight blocks' rows and the bias rows' entries. -/
theorem out_apply (x0 : Vec Ideal S4096x168 .f32) (x1 : Vec Ideal S84x168 .f32) (x2 : Vec Ideal S42x84 .f32)
    (x3 : Vec Ideal S21x42 .f32) (x4 : Vec Ideal S12x21 .f32) (x5 : Vec Ideal S10x12 .f32) (x6 : Vec Ideal S5x10 .f32)
    (x7 : Vec Ideal S2x5 .f32) (x8 : Vec Ideal S1x2 .f32) (x9 : Vec Ideal S1x84 .f32) (x10 : Vec Ideal S1x42 .f32)
    (x11 : Vec Ideal S1x21 .f32) (x12 : Vec Ideal S1x12 .f32) (x13 : Vec Ideal S1x10 .f32) (x14 : Vec Ideal S1x5 .f32)
    (x15 : Vec Ideal S1x2 .f32) (x16 : Vec Ideal S1x1 .f32) (a : Fin 4096) (u : Fin 1) :
    out0_17 x0 x1 x2 x3 x4 x5 x6 x7 x8 x9 x10 x11 x12 x13 x14 x15 x16 (ix2 a u)
      = score (mat x1) (brow x9) (mat x2) (brow x10) (mat x3) (brow x11) (mat x4) (brow x12) (mat x5) (brow x13)
          (mat x6) (brow x14) (mat x7) (brow x15) (mat x8) (brow x16) (row x0 a) u := by
  unfold out0_17
  rw [View.canon_unit_zero hz]
  simp only [View.ld_unit_zero (S := S4096x168) hz, View.ld_unit_zero (S := S84x168) hz, View.ld_unit_zero (S := S42x84) hz,
    View.ld_unit_zero (S := S21x42) hz, View.ld_unit_zero (S := S12x21) hz, View.ld_unit_zero (S := S10x12) hz,
    View.ld_unit_zero (S := S5x10) hz, View.ld_unit_zero (S := S2x5) hz, View.ld_unit_zero (S := S1x2) hz,
    View.ld_unit_zero (S := S1x84) hz, View.ld_unit_zero (S := S1x42) hz, View.ld_unit_zero (S := S1x21) hz,
    View.ld_unit_zero (S := S1x12) hz, View.ld_unit_zero (S := S1x10) hz, View.ld_unit_zero (S := S1x5) hz,
    View.ld_unit_zero (S := S1x1) hz]
  refine (pay1_apply _ x16 x8 a u).trans ?_
  refine congrArg Ideal.logistic (dense_congr _ _ (fun c => ?_) u)
  refine (pay4_apply _ _ x4 x13 x5 x14 x6 x15 x7 a c).trans ?_
  have e3 : k0_pay3 x12 = x12 := by unfold k0_pay3; exact shapeCast_self x12 _
  have eh : row (k0_pay2 x0 x9 x1 x10 x2 x11 x3) a
      = hidden3 (mat x1) (brow x9) (mat x2) (brow x10) (mat x3) (brow x11) (row x0 a) :=
    funext fun c' => pay2_apply x0 x9 x1 x10 x2 x11 x3 a c'
  rw [e3, eh]

end Cert.KernelIdeal.Block

end
-- ==== Proof.KernelValue.lean ====
/-
  From the blocks to the whole array.

  The grid has 64 points; point `t` reads rows `4096 t … 4096 t + 4095` of the input, every weight array whole, every
  bias (kept as a row by a reshape before the launch) whole, and writes back rows `4096 t … 4096 t + 4095` of the
  result. What it writes back is the network's value on each of those rows, so it is block `t` of the one function `G`
  of the argument arrays; the 64 blocks cover the result array; hence the array after the run is `G`.
-/
import proofs.«114216_j49091476194058_2_alg».proof.Proof.ValueLeg
import proofs.«114216_j49091476194058_2_alg».proof.Proof.KernelBlock
import Idealize.ShloMosaic.Lib.StableHlo.Run

noncomputable section

namespace Cert.KernelIdeal.Whole

open Cert.KernelIdeal Cert.KernelIdeal.Gen Cert.KernelIdeal.Block Idealize.ShloMosaic Idealize.ShloMosaic.TcCoe Idealize.SL.Sem
open Idealize.ShloMosaic.ValueIdx Cert.DenseRows Cert.Mlp
open Idealize.ShloMosaic.Pipeline (Dat)

variable (m : (ℓ : Loc nD τ sig) → Buf (Elt Ideal) ℓ) (ρ : Dev nD → PrngReg)

/-! ## The index maps, decided over the 64 points -/

/-- The input's block moves with the output's block along the rows, and neither moves along the columns. -/
theorem idx_rows : ∀ t : Fin cfg0.N, win0_0.index t (0 : Fin 2) = win0_17.index t (0 : Fin 2)
    ∧ win0_0.index t (1 : Fin 2) = 0 ∧ win0_17.index t (1 : Fin 2) = 0 :=
  (by decide +kernel : ∀ t : Fin grid0.N, _)

/-- Every block of rows of the result is some point's. -/
theorem idx_onto : ∀ q : Fin 64, ∃ t : Fin cfg0.N, win0_17.index t (0 : Fin 2) = q.val :=
  (by decide +kernel : ∀ q : Fin 64, ∃ t : Fin grid0.N, win0_17.index t (0 : Fin 2) = q.val)

/-- Window 1's block never moves: it is the whole array. -/
theorem idx_whole1 : ∀ t : Fin cfg0.N, win0_1.index t (0 : Fin 2) = 0 ∧ win0_1.index t (1 : Fin 2) = 0 :=
  (by decide +kernel : ∀ t : Fin grid0.N, _)

/-- Window 2's block never moves: it is the whole array. -/
theorem idx_whole2 : ∀ t : Fin cfg0.N, win0_2.index t (0 : Fin 2) = 0 ∧ win0_2.index t (1 : Fin 2) = 0 :=
  (by decide +kernel : ∀ t : Fin grid0.N, _)

/-- Window 3's block never moves: it is the whole array. -/
theorem idx_whole3 : ∀ t : Fin cfg0.N, win0_3.index t (0 : Fin 2) = 0 ∧ win0_3.index t (1 : Fin 2) = 0 :=
  (by decide +kernel : ∀ t : Fin grid0.N, _)

/-- Window 4's block never moves: it is the whole array. -/
theorem idx_whole4 : ∀ t : Fin cfg0.N, win0_4.index t (0 : Fin 2) = 0 ∧ win0_4.index t (1 : Fin 2) = 0 :=
  (by decide +kernel : ∀ t : Fin grid0.N, _)

/-- Window 5's block never moves: it is the whole array. -/
theorem idx_whole5 : ∀ t : Fin cfg0.N, win0_5.index t (0 : Fin 2) = 0 ∧ win0_5.index t (1 : Fin 2) = 0 :=
  (by decide +kernel : ∀ t : Fin grid0.N, _)

/-- Window 6's block never moves: it is the whole array. -/
theorem idx_whole6 : ∀ t : Fin cfg0.N, win0_6.index t (0 : Fin 2) = 0 ∧ win0_6.index t (1 : Fin 2) = 0 :=
  (by decide +kernel : ∀ t : Fin grid0.N, _)

/-- Window 7's block never moves: it is the whole array. -/
theorem idx_whole7 : ∀ t : Fin cfg0.N, win0_7.index t (0 : Fin 2) = 0 ∧ win0_7.index t (1 : Fin 2) = 0 :=
  (by decide +kernel : ∀ t : Fin grid0.N, _)

/-- Window 8's block never moves: it is the whole array. -/
theorem idx_whole8 : ∀ t : Fin cfg0.N, win0_8.index t (0 : Fin 2) = 0 ∧ win0_8.index t (1 : Fin 2) = 0 :=
  (by decide +kernel : ∀ t : Fin grid0.N, _)

/-- Window 9's block never moves: it is the whole array. -/
theorem idx_whole9 : ∀ t : Fin cfg0.N, win0_9.index t (0 : Fin 2) = 0 ∧ win0_9.index t (1 : Fin 2) = 0 :=
  (by decide +kernel : ∀ t : Fin grid0.N, _)

/-- Window 10's block never moves: it is the whole array. -/
theorem idx_whole10 : ∀ t : Fin cfg0.N, win0_10.index t (0 : Fin 2) = 0 ∧ win0_10.index t (1 : Fin 2) = 0 :=
  (by decide +kernel : ∀ t : Fin grid0.N, _)

/-- Window 11's block never moves: it is the whole array. -/
theorem idx_whole11 : ∀ t : Fin cfg0.N, win0_11.index t (0 : Fin 2) = 0 ∧ win0_11.index t (1 : Fin 2) = 0 :=
  (by decide +kernel : ∀ t : Fin grid0.N, _)

/-- Window 12's block never moves: it is the whole array. -/
theorem idx_whole12 : ∀ t : Fin cfg0.N, win0_12.index t (0 : Fin 2) = 0 ∧ win0_12.index t (1 : Fin 2) = 0 :=
  (by decide +kernel : ∀ t : Fin grid0.N, _)

/-- Window 13's block never moves: it is the whole array. -/
theorem idx_whole13 : ∀ t : Fin cfg0.N, win0_13.index t (0 : Fin 2) = 0 ∧ win0_13.index t (1 : Fin 2) = 0 :=
  (by decide +kernel : ∀ t : Fin grid0.N, _)

/-- Window 14's block never moves: it is the whole array. -/
theorem idx_whole14 : ∀ t : Fin cfg0.N, win0_14.index t (0 : Fin 2) = 0 ∧ win0_14.index t (1 : Fin 2) = 0 :=
  (by decide +kernel : ∀ t : Fin grid0.N, _)

/-- Window 15's block never moves: it is the whole array. -/
theorem idx_whole15 : ∀ t : Fin cfg0.N, win0_15.index t (0 : Fin 2) = 0 ∧ win0_15.index t (1 : Fin 2) = 0 :=
  (by decide +kernel : ∀ t : Fin grid0.N, _)

/-- Window 16's block never moves: it is the whole array. -/
theorem idx_whole16 : ∀ t : Fin cfg0.N, win0_16.index t (0 : Fin 2) = 0 ∧ win0_16.index t (1 : Fin 2) = 0 :=
  (by decide +kernel : ∀ t : Fin grid0.N, _)

/-! ## The bias rows, as the reshapes before the launch leave them -/

/-- The bias of layer 1 kept as a row: the reshape of its vector. -/
theorem bias_row1 (c : Dev nD) : (V m c main_v0 : S1x84.Idx → EReal)
    = shapeCast S1x84 (m ((c : Thread nD τ).loc main_arg2)) shapeCasts_S84_S1x84 := by
  dsimp only [Gen.V, Gen.hostOps0]; after_results; rfl

/-- The bias of layer 2 kept as a row: the reshape of its vector. -/
theorem bias_row2 (c : Dev nD) : (V m c main_v1 : S1x42.Idx → EReal)
    = shapeCast S1x42 (m ((c : Thread nD τ).loc main_arg4)) shapeCasts_S42_S1x42 := by
  dsimp only [Gen.V, Gen.hostOps0]; after_results; rfl

/-- The bias of layer 3 kept as a row: the reshape of its vector. -/
theorem bias_row3 (c : Dev nD) : (V m c main_v2 : S1x21.Idx → EReal)
    = shapeCast S1x21 (m ((c : Thread nD τ).loc main_arg6)) shapeCasts_S21_S1x21 := by
  dsimp only [Gen.V, Gen.hostOps0]; after_results; rfl

/-- The bias of layer 4 kept as a row: the reshape of its vector. -/
theorem bias_row4 (c : Dev nD) : (V m c main_v3 : S1x12.Idx → EReal)
    = shapeCast S1x12 (m ((c : Thread nD τ).loc main_arg8)) shapeCasts_S12_S1x12 := by
  dsimp only [Gen.V, Gen.hostOps0]; after_results; rfl

/-- The bias of layer 5 kept as a row: the reshape of its vector. -/
theorem bias_row5 (c : Dev nD) : (V m c main_v4 : S1x10.Idx → EReal)
    = shapeCast S1x10 (m ((c : Thread nD τ).loc main_arg10)) shapeCasts_S10_S1x10 := by
  dsimp only [Gen.V, Gen.hostOps0]; after_results; rfl

/-- The bias of layer 6 kept as a row: the reshape of its vector. -/
theorem bias_row6 (c : Dev nD) : (V m c main_v5 : S1x5.Idx → EReal)
    = shapeCast S1x5 (m ((c : Thread nD τ).loc main_arg12)) shapeCasts_S5_S1x5 := by
  dsimp only [Gen.V, Gen.hostOps0]; after_results; rfl

/-- The bias of layer 7 kept as a row: the reshape of its vector. -/
theorem bias_row7 (c : Dev nD) : (V m c main_v6 : S1x2.Idx → EReal)
    = shapeCast S1x2 (m ((c : Thread nD τ).loc main_arg14)) shapeCasts_S2_S1x2 := by
  dsimp only [Gen.V, Gen.hostOps0]; after_results; rfl

/-- The bias of layer 8 kept as a row: the reshape of its vector. -/
theorem bias_row8 (c : Dev nD) : (V m c main_v7 : S1x1.Idx → EReal)
    = shapeCast S1x1 (m ((c : Thread nD τ).loc main_arg16)) shapeCasts_S1_S1x1 := by
  dsimp only [Gen.V, Gen.hostOps0]; after_results; rfl

/-! ## The blocks the body reads -/

/-- The input's block at point `t`, at `(a, cc)`: the input at the row the output block's row `a` lands on. -/
theorem blk_x (c : Dev nD) (t : Fin cfg0.N) (a : Fin 4096) (u : Fin 1) (cc : Fin 168) :
    iblk m c 0 t (ix2 a cc)
      = (m ((c : Thread nD τ).loc main_arg0)) (ix2 ((((cfg0.win 17).blk t).view.emb (ix2 a u)) 0) cc) := by
  obtain ⟨h0, h1, h2⟩ := idx_rows t
  show V m c main_arg0 (((cfg0.win 0).blk t).view.emb (ix2 a cc)) = _
  rw [V_main_arg0]
  refine congrArg _ (funext fun ax => Fin.ext ?_)
  match ax with
  | ⟨0, _⟩ => show win0_0.index t (0 : Fin 2) * 4096 + 1 * a.val = win0_17.index t (0 : Fin 2) * 4096 + 1 * a.val; omega
  | ⟨1, _⟩ => show win0_0.index t (1 : Fin 2) * 168 + 1 * cc.val = cc.val; omega

/-- The weights of layer 1: the block is the whole array. -/
theorem blk_W1 (c : Dev nD) (t : Fin cfg0.N) : mat (iblk m c 1 t) = mat (m ((c : Thread nD τ).loc main_arg1)) := by
  obtain ⟨h0, h1⟩ := idx_whole1 t
  funext j cc
  show V m c main_arg1 (((cfg0.win 1).blk t).view.emb (ix2 j cc)) = _
  rw [V_main_arg1]
  refine congrArg _ (funext fun ax => Fin.ext ?_)
  match ax with
  | ⟨0, _⟩ => show win0_1.index t (0 : Fin 2) * 84 + 1 * j.val = j.val; omega
  | ⟨1, _⟩ => show win0_1.index t (1 : Fin 2) * 168 + 1 * cc.val = cc.val; omega

/-- The weights of layer 2: the block is the whole array. -/
theorem blk_W2 (c : Dev nD) (t : Fin cfg0.N) : mat (iblk m c 2 t) = mat (m ((c : Thread nD τ).loc main_arg3)) := by
  obtain ⟨h0, h1⟩ := idx_whole2 t
  funext j cc
  show V m c main_arg3 (((cfg0.win 2).blk t).view.emb (ix2 j cc)) = _
  rw [V_main_arg3]
  refine congrArg _ (funext fun ax => Fin.ext ?_)
  match ax with
  | ⟨0, _⟩ => show win0_2.index t (0 : Fin 2) * 42 + 1 * j.val = j.val; omega
  | ⟨1, _⟩ => show win0_2.index t (1 : Fin 2) * 84 + 1 * cc.val = cc.val; omega

/-- The weights of layer 3: the block is the whole array. -/
theorem blk_W3 (c : Dev nD) (t : Fin cfg0.N) : mat (iblk m c 3 t) = mat (m ((c : Thread nD τ).loc main_arg5)) := by
  obtain ⟨h0, h1⟩ := idx_whole3 t
  funext j cc
  show V m c main_arg5 (((cfg0.win 3).blk t).view.emb (ix2 j cc)) = _
  rw [V_main_arg5]
  refine congrArg _ (funext fun ax => Fin.ext ?_)
  match ax with
  | ⟨0, _⟩ => show win0_3.index t (0 : Fin 2) * 21 + 1 * j.val = j.val; omega
  | ⟨1, _⟩ => show win0_3.index t (1 : Fin 2) * 42 + 1 * cc.val = cc.val; omega

/-- The weights of layer 4: the block is the whole array. -/
theorem blk_W4 (c : Dev nD) (t : Fin cfg0.N) : mat (iblk m c 4 t) = mat (m ((c : Thread nD τ).loc main_arg7)) := by
  obtain ⟨h0, h1⟩ := idx_whole4 t
  funext j cc
  show V m c main_arg7 (((cfg0.win 4).blk t).view.emb (ix2 j cc)) = _
  rw [V_main_arg7]
  refine congrArg _ (funext fun ax => Fin.ext ?_)
  match ax with
  | ⟨0, _⟩ => show win0_4.index t (0 : Fin 2) * 12 + 1 * j.val = j.val; omega
  | ⟨1, _⟩ => show win0_4.index t (1 : Fin 2) * 21 + 1 * cc.val = cc.val; omega

/-- The weights of layer 5: the block is the whole array. -/
theorem blk_W5 (c : Dev nD) (t : Fin cfg0.N) : mat (iblk m c 5 t) = mat (m ((c : Thread nD τ).loc main_arg9)) := by
  obtain ⟨h0, h1⟩ := idx_whole5 t
  funext j cc
  show V m c main_arg9 (((cfg0.win 5).blk t).view.emb (ix2 j cc)) = _
  rw [V_main_arg9]
  refine congrArg _ (funext fun ax => Fin.ext ?_)
  match ax with
  | ⟨0, _⟩ => show win0_5.index t (0 : Fin 2) * 10 + 1 * j.val = j.val; omega
  | ⟨1, _⟩ => show win0_5.index t (1 : Fin 2) * 12 + 1 * cc.val = cc.val; omega

/-- The weights of layer 6: the block is the whole array. -/
theorem blk_W6 (c : Dev nD) (t : Fin cfg0.N) : mat (iblk m c 6 t) = mat (m ((c : Thread nD τ).loc main_arg11)) := by
  obtain ⟨h0, h1⟩ := idx_whole6 t
  funext j cc
  show V m c main_arg11 (((cfg0.win 6).blk t).view.emb (ix2 j cc)) = _
  rw [V_main_arg11]
  refine congrArg _ (funext fun ax => Fin.ext ?_)
  match ax with
  | ⟨0, _⟩ => show win0_6.index t (0 : Fin 2) * 5 + 1 * j.val = j.val; omega
  | ⟨1, _⟩ => show win0_6.index t (1 : Fin 2) * 10 + 1 * cc.val = cc.val; omega

/-- The weights of layer 7: the block is the whole array. -/
theorem blk_W7 (c : Dev nD) (t : Fin cfg0.N) : mat (iblk m c 7 t) = mat (m ((c : Thread nD τ).loc main_arg13)) := by
  obtain ⟨h0, h1⟩ := idx_whole7 t
  funext j cc
  show V m c main_arg13 (((cfg0.win 7).blk t).view.emb (ix2 j cc)) = _
  rw [V_main_arg13]
  refine congrArg _ (funext fun ax => Fin.ext ?_)
  match ax with
  | ⟨0, _⟩ => show win0_7.index t (0 : Fin 2) * 2 + 1 * j.val = j.val; omega
  | ⟨1, _⟩ => show win0_7.index t (1 : Fin 2) * 5 + 1 * cc.val = cc.val; omega

/-- The weights of layer 8: the block is the whole array. -/
theorem blk_W8 (c : Dev nD) (t : Fin cfg0.N) : mat (iblk m c 8 t) = mat (m ((c : Thread nD τ).loc main_arg15)) := by
  obtain ⟨h0, h1⟩ := idx_whole8 t
  funext j cc
  show V m c main_arg15 (((cfg0.win 8).blk t).view.emb (ix2 j cc)) = _
  rw [V_main_arg15]
  refine congrArg _ (funext fun ax => Fin.ext ?_)
  match ax with
  | ⟨0, _⟩ => show win0_8.index t (0 : Fin 2) * 1 + 1 * j.val = j.val; omega
  | ⟨1, _⟩ => show win0_8.index t (1 : Fin 2) * 2 + 1 * cc.val = cc.val; omega

/-- The bias row of layer 1: the block is the whole row, whose entries are the bias vector's. -/
theorem blk_b1 (c : Dev nD) (t : Fin cfg0.N) : brow (iblk m c 9 t) = vec (m ((c : Thread nD τ).loc main_arg2)) := by
  obtain ⟨h0, h1⟩ := idx_whole9 t
  funext j
  have he : ((cfg0.win 9).blk t).view.emb (ix2 (0 : Fin 1) j) = ix2 (0 : Fin 1) j := funext fun ax => Fin.ext (by
    match ax with
    | ⟨0, _⟩ => show win0_9.index t (0 : Fin 2) * 1 + 1 * 0 = 0; omega
    | ⟨1, _⟩ => show win0_9.index t (1 : Fin 2) * 84 + 1 * j.val = j.val; omega)
  show V m c main_v0 (((cfg0.win 9).blk t).view.emb (ix2 (0 : Fin 1) j)) = _
  rw [he, bias_row1 m c]
  exact shapeCast_a_1a_apply _ _ 0 j

/-- The bias row of layer 2: the block is the whole row, whose entries are the bias vector's. -/
theorem blk_b2 (c : Dev nD) (t : Fin cfg0.N) : brow (iblk m c 10 t) = vec (m ((c : Thread nD τ).loc main_arg4)) := by
  obtain ⟨h0, h1⟩ := idx_whole10 t
  funext j
  have he : ((cfg0.win 10).blk t).view.emb (ix2 (0 : Fin 1) j) = ix2 (0 : Fin 1) j := funext fun ax => Fin.ext (by
    match ax with
    | ⟨0, _⟩ => show win0_10.index t (0 : Fin 2) * 1 + 1 * 0 = 0; omega
    | ⟨1, _⟩ => show win0_10.index t (1 : Fin 2) * 42 + 1 * j.val = j.val; omega)
  show V m c main_v1 (((cfg0.win 10).blk t).view.emb (ix2 (0 : Fin 1) j)) = _
  rw [he, bias_row2 m c]
  exact shapeCast_a_1a_apply _ _ 0 j

/-- The bias row of layer 3: the block is the whole row, whose entries are the bias vector's. -/
theorem blk_b3 (c : Dev nD) (t : Fin cfg0.N) : brow (iblk m c 11 t) = vec (m ((c : Thread nD τ).loc main_arg6)) := by
  obtain ⟨h0, h1⟩ := idx_whole11 t
  funext j
  have he : ((cfg0.win 11).blk t).view.emb (ix2 (0 : Fin 1) j) = ix2 (0 : Fin 1) j := funext fun ax => Fin.ext (by
    match ax with
    | ⟨0, _⟩ => show win0_11.index t (0 : Fin 2) * 1 + 1 * 0 = 0; omega
    | ⟨1, _⟩ => show win0_11.index t (1 : Fin 2) * 21 + 1 * j.val = j.val; omega)
  show V m c main_v2 (((cfg0.win 11).blk t).view.emb (ix2 (0 : Fin 1) j)) = _
  rw [he, bias_row3 m c]
  exact shapeCast_a_1a_apply _ _ 0 j

/-- The bias row of layer 4: the block is the whole row, whose entries are the bias vector's. -/
theorem blk_b4 (c : Dev nD) (t : Fin cfg0.N) : brow (iblk m c 12 t) = vec (m ((c : Thread nD τ).loc main_arg8)) := by
  obtain ⟨h0, h1⟩ := idx_whole12 t
  funext j
  have he : ((cfg0.win 12).blk t).view.emb (ix2 (0 : Fin 1) j) = ix2 (0 : Fin 1) j := funext fun ax => Fin.ext (by
    match ax with
    | ⟨0, _⟩ => show win0_12.index t (0 : Fin 2) * 1 + 1 * 0 = 0; omega
    | ⟨1, _⟩ => show win0_12.index t (1 : Fin 2) * 12 + 1 * j.val = j.val; omega)
  show V m c main_v3 (((cfg0.win 12).blk t).view.emb (ix2 (0 : Fin 1) j)) = _
  rw [he, bias_row4 m c]
  exact shapeCast_a_1a_apply _ _ 0 j

/-- The bias row of layer 5: the block is the whole row, whose entries are the bias vector's. -/
theorem blk_b5 (c : Dev nD) (t : Fin cfg0.N) : brow (iblk m c 13 t) = vec (m ((c : Thread nD τ).loc main_arg10)) := by
  obtain ⟨h0, h1⟩ := idx_whole13 t
  funext j
  have he : ((cfg0.win 13).blk t).view.emb (ix2 (0 : Fin 1) j) = ix2 (0 : Fin 1) j := funext fun ax => Fin.ext (by
    match ax with
    | ⟨0, _⟩ => show win0_13.index t (0 : Fin 2) * 1 + 1 * 0 = 0; omega
    | ⟨1, _⟩ => show win0_13.index t (1 : Fin 2) * 10 + 1 * j.val = j.val; omega)
  show V m c main_v4 (((cfg0.win 13).blk t).view.emb (ix2 (0 : Fin 1) j)) = _
  rw [he, bias_row5 m c]
  exact shapeCast_a_1a_apply _ _ 0 j

/-- The bias row of layer 6: the block is the whole row, whose entries are the bias vector's. -/
theorem blk_b6 (c : Dev nD) (t : Fin cfg0.N) : brow (iblk m c 14 t) = vec (m ((c : Thread nD τ).loc main_arg12)) := by
  obtain ⟨h0, h1⟩ := idx_whole14 t
  funext j
  have he : ((cfg0.win 14).blk t).view.emb (ix2 (0 : Fin 1) j) = ix2 (0 : Fin 1) j := funext fun ax => Fin.ext (by
    match ax with
    | ⟨0, _⟩ => show win0_14.index t (0 : Fin 2) * 1 + 1 * 0 = 0; omega
    | ⟨1, _⟩ => show win0_14.index t (1 : Fin 2) * 5 + 1 * j.val = j.val; omega)
  show V m c main_v5 (((cfg0.win 14).blk t).view.emb (ix2 (0 : Fin 1) j)) = _
  rw [he, bias_row6 m c]
  exact shapeCast_a_1a_apply _ _ 0 j

/-- The bias row of layer 7: the block is the whole row, whose entries are the bias vector's. -/
theorem blk_b7 (c : Dev nD) (t : Fin cfg0.N) : brow (iblk m c 15 t) = vec (m ((c : Thread nD τ).loc main_arg14)) := by
  obtain ⟨h0, h1⟩ := idx_whole15 t
  funext j
  have he : ((cfg0.win 15).blk t).view.emb (ix2 (0 : Fin 1) j) = ix2 (0 : Fin 1) j := funext fun ax => Fin.ext (by
    match ax with
    | ⟨0, _⟩ => show win0_15.index t (0 : Fin 2) * 1 + 1 * 0 = 0; omega
    | ⟨1, _⟩ => show win0_15.index t (1 : Fin 2) * 2 + 1 * j.val = j.val; omega)
  show V m c main_v6 (((cfg0.win 15).blk t).view.emb (ix2 (0 : Fin 1) j)) = _
  rw [he, bias_row7 m c]
  exact shapeCast_a_1a_apply _ _ 0 j

/-- The bias row of layer 8: the block is the whole row, whose entries are the bias vector's. -/
theorem blk_b8 (c : Dev nD) (t : Fin cfg0.N) : brow (iblk m c 16 t) = vec (m ((c : Thread nD τ).loc main_arg16)) := by
  obtain ⟨h0, h1⟩ := idx_whole16 t
  funext j
  have he : ((cfg0.win 16).blk t).view.emb (ix2 (0 : Fin 1) j) = ix2 (0 : Fin 1) j := funext fun ax => Fin.ext (by
    match ax with
    | ⟨0, _⟩ => show win0_16.index t (0 : Fin 2) * 1 + 1 * 0 = 0; omega
    | ⟨1, _⟩ => show win0_16.index t (1 : Fin 2) * 1 + 1 * j.val = j.val; omega)
  show V m c main_v7 (((cfg0.win 16).blk t).view.emb (ix2 (0 : Fin 1) j)) = _
  rw [he, bias_row8 m c]
  exact shapeCast_a_1a_apply _ _ 0 j

/-! ## What a point writes back, the cover, the array -/

/-- WHAT POINT `t` WRITES BACK is block `t` of `G` of the argument arrays. -/
theorem flushed_eq (c : Dev nD) (t : Fin cfg0.N) :
    (dats m 0 c).flushed 17 t = ((cfg0.win 17).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) := by
  rw [ValueP.flushed17]
  funext y
  obtain ⟨a, u, rfl⟩ : ∃ (a : Fin 4096) (u : Fin 1), y = ix2 a u := ⟨y 0, y 1, eq_ix2 y⟩
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 a u)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (((cfg0.win 17).blk t).view.emb (ix2 a u))
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) a u).trans ?_
  have ex : row (iblk m c 0 t) a = row (m ((c : Thread nD τ).loc main_arg0)) ((((cfg0.win 17).blk t).view.emb (ix2 a u)) 0) :=
    funext fun cc => blk_x m c t a u cc
  have eu : u = (((cfg0.win 17).blk t).view.emb (ix2 a u)) 1 := Subsingleton.elim (α := Fin 1) _ _
  rw [blk_W1 m c t, blk_W2 m c t, blk_W3 m c t, blk_W4 m c t, blk_W5 m c t, blk_W6 m c t, blk_W7 m c t, blk_W8 m c t,
    blk_b1 m c t, blk_b2 m c t, blk_b3 m c t, blk_b4 m c t, blk_b5 m c t, blk_b6 m c t, blk_b7 m c t, blk_b8 m c t, ex]
  exact congrArg _ eu

/-- An index of the result is in point `t`'s block iff each coordinate is in the block's range on its axis. -/
theorem mem_blk (t : Fin cfg0.N) (i : S262144x1.Idx) :
    i ∈ ((cfg0.win 17).blk t).view.set ↔ ∀ a : Fin 2, win0_17.index t a * S4096x1.size a ≤ (i a).val ∧ (i a).val < win0_17.index t a * S4096x1.size a + S4096x1.size a := by
  show i ∈ ((View.whole main_v8).slice (win0_17.rect t)).set ↔ _
  rw [View.set_slice_whole, Rect.mem_set_unit]
  exact Iff.rfl

/-- Every index of the result is in the block of the point that owns its block of rows. -/
theorem cover (i : S262144x1.Idx) :
    ∃ t : Fin cfg0.N, (cfg0.win 17).flush t = true ∧ i ∈ ((cfg0.win 17).blk t).view.set := by
  have hi0 : (i 0).val < 262144 := (i 0).isLt
  have hi1 : (i 1).val < 1 := (i 1).isLt
  obtain ⟨t, ht⟩ := idx_onto ⟨(i 0).val / 4096, by omega⟩
  have ht' : win0_17.index t (0 : Fin 2) = (i 0).val / 4096 := ht
  obtain ⟨-, -, h2⟩ := idx_rows t
  refine ⟨t, flush0_17 t, ?_⟩
  rw [mem_blk]
  intro a
  match a with
  | ⟨0, _⟩ => show win0_17.index t (0 : Fin 2) * 4096 ≤ (i 0).val ∧ (i 0).val < win0_17.index t (0 : Fin 2) * 4096 + 4096; omega
  | ⟨1, _⟩ => show win0_17.index t (1 : Fin 2) * 1 ≤ (i 1).val ∧ (i 1).val < win0_17.index t (1 : Fin 2) * 1 + 1; omega

/-- THE ARRAY after the run is `G` of the argument arrays. -/
theorem final (c : Dev nD) : (dats m 0 c).arrAt 17 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) :=
  (dats m 0 c).arrAt_eq_of_cover 17 (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (fun t _ => flushed_eq m c t) cover

/-- The kernel's run: the result array ends at `G` of the argument arrays, the arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (ValueP.run_blocks m ρ)

end Cert.KernelIdeal.Whole

end
-- ==== Proof.RefRows.lean ====
/-
  The reference program's stages, read at one entry.

  The reference applies each layer to the whole array: a product of the previous stage with the transposed weights
  (so entry `(r, j)` sums, over `c`, the previous stage at `(r, c)` times the weights at `(j, c)`), the bias spread over
  the rows, the maximum with zero; and at the end the logistic function spelt as `1 / (1 + e^(-z))`. Read at an entry
  `(r, j)`, every stage is the corresponding layer of ROW `r` of the previous stage, so the result at `(r, u)` is the
  network's value on row `r` of the input.
-/
import proofs.«114216_j49091476194058_2_alg».proof.Proof.Gen.ReferenceIdeal.Read
import proofs.«114216_j49091476194058_2_alg».proof.Proof.MlpSpec

noncomputable section

namespace Cert.ReferenceIdeal.Rows

open Cert.ReferenceIdeal Cert.ReferenceIdeal.Read Idealize.ShloMosaic Idealize.ShloMosaic.ValueIdx Cert.DenseRows Cert.Mlp

/-- Stage 1 at `(r, j)`: the rectified layer 1 of row `r` of the input. -/
theorem layer1 (x0 : (⟨S262144x168, .f32⟩ : BufTy).Contents (Elt Ideal)) (x1 : (⟨S84x168, .f32⟩ : BufTy).Contents (Elt Ideal)) (x2 : (⟨S84, .f32⟩ : BufTy).Contents (Elt Ideal)) (r : Fin 262144) (j : Fin 84) :
    val_main_v5 (F := Ideal) x0 x1 x2 (ix2 r j) = reluDense (mat x1) (vec x2) (row x0 r) j := by
  rw [val_main_v5_apply, val_main_v4_apply, val_main_v1_apply, val_main_v3_apply, val_main_v2_apply,
    val_main_call0_v0_apply, val_main_call0_cst_apply]
  simp only [val_main_v0_apply]
  have e1 : ∀ c : Fin 168, lidx_main_v1 (ix2 r j) c = ix2 r c := fun c => funext fun a => Fin.ext (by
    match a with | ⟨0, _⟩ => rfl | ⟨1, _⟩ => rfl)
  have e2 : ∀ c : Fin 168, idx_main_v0 (ridx_main_v1 (ix2 r j) c) = ix2 j c := fun c => funext fun a => Fin.ext (by
    match a with | ⟨0, _⟩ => rfl | ⟨1, _⟩ => rfl)
  have e3 : idx_main_v2 (idx_main_v3 (ix2 r j)) = ix1 j := funext fun a => Fin.ext (by
    match a with | ⟨0, _⟩ => rfl)
  simp only [e1, e2, e3]
  show max ((∑ c : Fin 168, x0 (ix2 r c) * x1 (ix2 j c)) + x2 (ix1 j)) (Ideal.ofBits .f32 0x00000000#32) = _
  rw [Ideal.ofBits_zero_f32]
  rfl

/-- Stage 2 at `(r, j)`: the rectified layer 2 of row `r` of stage 1. -/
theorem layer2 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (r : Fin 262144) (j : Fin 42) :
    val_main_v11 (F := Ideal) x0 x1 x2 x3 x4 (ix2 r j) = reluDense (mat x3) (vec x4) (fun c => val_main_v5 (F := Ideal) x0 x1 x2 (ix2 r c)) j := by
  rw [val_main_v11_apply, val_main_v10_apply, val_main_v7_apply, val_main_v9_apply, val_main_v8_apply,
    val_main_call1_v0_apply, val_main_call1_cst_apply]
  simp only [val_main_v6_apply]
  have e1 : ∀ c : Fin 84, lidx_main_v7 (ix2 r j) c = ix2 r c := fun c => funext fun a => Fin.ext (by
    match a with | ⟨0, _⟩ => rfl | ⟨1, _⟩ => rfl)
  have e2 : ∀ c : Fin 84, idx_main_v6 (ridx_main_v7 (ix2 r j) c) = ix2 j c := fun c => funext fun a => Fin.ext (by
    match a with | ⟨0, _⟩ => rfl | ⟨1, _⟩ => rfl)
  have e3 : idx_main_v8 (idx_main_v9 (ix2 r j)) = ix1 j := funext fun a => Fin.ext (by
    match a with | ⟨0, _⟩ => rfl)
  simp only [e1, e2, e3]
  show max ((∑ c : Fin 84, (val_main_v5 (F := Ideal) x0 x1 x2) (ix2 r c) * x3 (ix2 j c)) + x4 (ix1 j)) (Ideal.ofBits .f32 0x00000000#32) = _
  rw [Ideal.ofBits_zero_f32]
  rfl

/-- Stage 3 at `(r, j)`: the rectified layer 3 of row `r` of stage 2. -/
theorem layer3 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (r : Fin 262144) (j : Fin 21) :
    val_main_v17 (F := Ideal) x0 x1 x2 x3 x4 x5 x6 (ix2 r j) = reluDense (mat x5) (vec x6) (fun c => val_main_v11 (F := Ideal) x0 x1 x2 x3 x4 (ix2 r c)) j := by
  rw [val_main_v17_apply, val_main_v16_apply, val_main_v13_apply, val_main_v15_apply, val_main_v14_apply,
    val_main_call2_v0_apply, val_main_call2_cst_apply]
  simp only [val_main_v12_apply]
  have e1 : ∀ c : Fin 42, lidx_main_v13 (ix2 r j) c = ix2 r c := fun c => funext fun a => Fin.ext (by
    match a with | ⟨0, _⟩ => rfl | ⟨1, _⟩ => rfl)
  have e2 : ∀ c : Fin 42, idx_main_v12 (ridx_main_v13 (ix2 r j) c) = ix2 j c := fun c => funext fun a => Fin.ext (by
    match a with | ⟨0, _⟩ => rfl | ⟨1, _⟩ => rfl)
  have e3 : idx_main_v14 (idx_main_v15 (ix2 r j)) = ix1 j := funext fun a => Fin.ext (by
    match a with | ⟨0, _⟩ => rfl)
  simp only [e1, e2, e3]
  show max ((∑ c : Fin 42, (val_main_v11 (F := Ideal) x0 x1 x2 x3 x4) (ix2 r c) * x5 (ix2 j c)) + x6 (ix1 j)) (Ideal.ofBits .f32 0x00000000#32) = _
  rw [Ideal.ofBits_zero_f32]
  rfl

/-- Stage 4 at `(r, j)`: the rectified layer 4 of row `r` of stage 3. -/
theorem layer4 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (r : Fin 262144) (j : Fin 12) :
    val_main_v23 (F := Ideal) x0 x1 x2 x3 x4 x5 x6 x7 x8 (ix2 r j) = reluDense (mat x7) (vec x8) (fun c => val_main_v17 (F := Ideal) x0 x1 x2 x3 x4 x5 x6 (ix2 r c)) j := by
  rw [val_main_v23_apply, val_main_v22_apply, val_main_v19_apply, val_main_v21_apply, val_main_v20_apply,
    val_main_call3_v0_apply, val_main_call3_cst_apply]
  simp only [val_main_v18_apply]
  have e1 : ∀ c : Fin 21, lidx_main_v19 (ix2 r j) c = ix2 r c := fun c => funext fun a => Fin.ext (by
    match a with | ⟨0, _⟩ => rfl | ⟨1, _⟩ => rfl)
  have e2 : ∀ c : Fin 21, idx_main_v18 (ridx_main_v19 (ix2 r j) c) = ix2 j c := fun c => funext fun a => Fin.ext (by
    match a with | ⟨0, _⟩ => rfl | ⟨1, _⟩ => rfl)
  have e3 : idx_main_v20 (idx_main_v21 (ix2 r j)) = ix1 j := funext fun a => Fin.ext (by
    match a with | ⟨0, _⟩ => rfl)
  simp only [e1, e2, e3]
  show max ((∑ c : Fin 21, (val_main_v17 (F := Ideal) x0 x1 x2 x3 x4 x5 x6) (ix2 r c) * x7 (ix2 j c)) + x8 (ix1 j)) (Ideal.ofBits .f32 0x00000000#32) = _
  rw [Ideal.ofBits_zero_f32]
  rfl

/-- Stage 5 at `(r, j)`: the rectified layer 5 of row `r` of stage 4. -/
theorem layer5 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (x9 : (⟨S10x12, .f32⟩ : BufTy).Contents (Elt Ideal)) (x10 : (⟨S10, .f32⟩ : BufTy).Contents (Elt Ideal)) (r : Fin 262144) (j : Fin 10) :
    val_main_v29 (F := Ideal) x0 x1 x2 x3 x4 x5 x6 x7 x8 x9 x10 (ix2 r j) = reluDense (mat x9) (vec x10) (fun c => val_main_v23 (F := Ideal) x0 x1 x2 x3 x4 x5 x6 x7 x8 (ix2 r c)) j := by
  rw [val_main_v29_apply, val_main_v28_apply, val_main_v25_apply, val_main_v27_apply, val_main_v26_apply,
    val_main_call4_v0_apply, val_main_call4_cst_apply]
  simp only [val_main_v24_apply]
  have e1 : ∀ c : Fin 12, lidx_main_v25 (ix2 r j) c = ix2 r c := fun c => funext fun a => Fin.ext (by
    match a with | ⟨0, _⟩ => rfl | ⟨1, _⟩ => rfl)
  have e2 : ∀ c : Fin 12, idx_main_v24 (ridx_main_v25 (ix2 r j) c) = ix2 j c := fun c => funext fun a => Fin.ext (by
    match a with | ⟨0, _⟩ => rfl | ⟨1, _⟩ => rfl)
  have e3 : idx_main_v26 (idx_main_v27 (ix2 r j)) = ix1 j := funext fun a => Fin.ext (by
    match a with | ⟨0, _⟩ => rfl)
  simp only [e1, e2, e3]
  show max ((∑ c : Fin 12, (val_main_v23 (F := Ideal) x0 x1 x2 x3 x4 x5 x6 x7 x8) (ix2 r c) * x9 (ix2 j c)) + x10 (ix1 j)) (Ideal.ofBits .f32 0x00000000#32) = _
  rw [Ideal.ofBits_zero_f32]
  rfl

/-- Stage 6 at `(r, j)`: the rectified layer 6 of row `r` of stage 5. -/
theorem layer6 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (x9 : (⟨S10x12, .f32⟩ : BufTy).Contents (Elt Ideal)) (x10 : (⟨S10, .f32⟩ : BufTy).Contents (Elt Ideal)) (x11 : (⟨S5x10, .f32⟩ : BufTy).Contents (Elt Ideal)) (x12 : (⟨S5, .f32⟩ : BufTy).Contents (Elt Ideal)) (r : Fin 262144) (j : Fin 5) :
    val_main_v35 (F := Ideal) x0 x1 x2 x3 x4 x5 x6 x7 x8 x9 x10 x11 x12 (ix2 r j) = reluDense (mat x11) (vec x12) (fun c => val_main_v29 (F := Ideal) x0 x1 x2 x3 x4 x5 x6 x7 x8 x9 x10 (ix2 r c)) j := by
  rw [val_main_v35_apply, val_main_v34_apply, val_main_v31_apply, val_main_v33_apply, val_main_v32_apply,
    val_main_call5_v0_apply, val_main_call5_cst_apply]
  simp only [val_main_v30_apply]
  have e1 : ∀ c : Fin 10, lidx_main_v31 (ix2 r j) c = ix2 r c := fun c => funext fun a => Fin.ext (by
    match a with | ⟨0, _⟩ => rfl | ⟨1, _⟩ => rfl)
  have e2 : ∀ c : Fin 10, idx_main_v30 (ridx_main_v31 (ix2 r j) c) = ix2 j c := fun c => funext fun a => Fin.ext (by
    match a with | ⟨0, _⟩ => rfl | ⟨1, _⟩ => rfl)
  have e3 : idx_main_v32 (idx_main_v33 (ix2 r j)) = ix1 j := funext fun a => Fin.ext (by
    match a with | ⟨0, _⟩ => rfl)
  simp only [e1, e2, e3]
  show max ((∑ c : Fin 10, (val_main_v29 (F := Ideal) x0 x1 x2 x3 x4 x5 x6 x7 x8 x9 x10) (ix2 r c) * x11 (ix2 j c)) + x12 (ix1 j)) (Ideal.ofBits .f32 0x00000000#32) = _
  rw [Ideal.ofBits_zero_f32]
  rfl

/-- Stage 7 at `(r, j)`: the rectified layer 7 of row `r` of stage 6. -/
theorem layer7 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (x9 : (⟨S10x12, .f32⟩ : BufTy).Contents (Elt Ideal)) (x10 : (⟨S10, .f32⟩ : BufTy).Contents (Elt Ideal)) (x11 : (⟨S5x10, .f32⟩ : BufTy).Contents (Elt Ideal)) (x12 : (⟨S5, .f32⟩ : BufTy).Contents (Elt Ideal)) (x13 : (⟨S2x5, .f32⟩ : BufTy).Contents (Elt Ideal)) (x14 : (⟨S2, .f32⟩ : BufTy).Contents (Elt Ideal)) (r : Fin 262144) (j : Fin 2) :
    val_main_v41 (F := Ideal) x0 x1 x2 x3 x4 x5 x6 x7 x8 x9 x10 x11 x12 x13 x14 (ix2 r j) = reluDense (mat x13) (vec x14) (fun c => val_main_v35 (F := Ideal) x0 x1 x2 x3 x4 x5 x6 x7 x8 x9 x10 x11 x12 (ix2 r c)) j := by
  rw [val_main_v41_apply, val_main_v40_apply, val_main_v37_apply, val_main_v39_apply, val_main_v38_apply,
    val_main_call6_v0_apply, val_main_call6_cst_apply]
  simp only [val_main_v36_apply]
  have e1 : ∀ c : Fin 5, lidx_main_v37 (ix2 r j) c = ix2 r c := fun c => funext fun a => Fin.ext (by
    match a with | ⟨0, _⟩ => rfl | ⟨1, _⟩ => rfl)
  have e2 : ∀ c : Fin 5, idx_main_v36 (ridx_main_v37 (ix2 r j) c) = ix2 j c := fun c => funext fun a => Fin.ext (by
    match a with | ⟨0, _⟩ => rfl | ⟨1, _⟩ => rfl)
  have e3 : idx_main_v38 (idx_main_v39 (ix2 r j)) = ix1 j := funext fun a => Fin.ext (by
    match a with | ⟨0, _⟩ => rfl)
  simp only [e1, e2, e3]
  show max ((∑ c : Fin 5, (val_main_v35 (F := Ideal) x0 x1 x2 x3 x4 x5 x6 x7 x8 x9 x10 x11 x12) (ix2 r c) * x13 (ix2 j c)) + x14 (ix1 j)) (Ideal.ofBits .f32 0x00000000#32) = _
  rw [Ideal.ofBits_zero_f32]
  rfl

/-- Stage 3 at `(r, j)`: the first three rectified layers of row `r` of the input. -/
theorem stage3 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (r : Fin 262144) (j : Fin 21) :
    val_main_v17 (F := Ideal) x0 x1 x2 x3 x4 x5 x6 (ix2 r j)
      = hidden3 (mat x1) (vec x2) (mat x3) (vec x4) (mat x5) (vec x6) (row x0 r) j := by
  refine (layer3 x0 x1 x2 x3 x4 x5 x6 r j).trans ?_
  refine reluDense_congr _ _ (fun c => ?_) j
  refine (layer2 x0 x1 x2 x3 x4 r c).trans ?_
  refine reluDense_congr _ _ (fun c' => ?_) c
  exact layer1 x0 x1 x2 r c'

/-- Stage 7 at `(r, j)`: the seven rectified layers of row `r` of the input. -/
theorem stage7 (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (x9 : (⟨S10x12, .f32⟩ : BufTy).Contents (Elt Ideal)) (x10 : (⟨S10, .f32⟩ : BufTy).Contents (Elt Ideal)) (x11 : (⟨S5x10, .f32⟩ : BufTy).Contents (Elt Ideal)) (x12 : (⟨S5, .f32⟩ : BufTy).Contents (Elt Ideal)) (x13 : (⟨S2x5, .f32⟩ : BufTy).Contents (Elt Ideal)) (x14 : (⟨S2, .f32⟩ : BufTy).Contents (Elt Ideal)) (r : Fin 262144) (j : Fin 2) :
    val_main_v41 (F := Ideal) x0 x1 x2 x3 x4 x5 x6 x7 x8 x9 x10 x11 x12 x13 x14 (ix2 r j)
      = hidden4 (mat x7) (vec x8) (mat x9) (vec x10) (mat x11) (vec x12) (mat x13) (vec x14)
          (hidden3 (mat x1) (vec x2) (mat x3) (vec x4) (mat x5) (vec x6) (row x0 r)) j := by
  refine (layer7 x0 x1 x2 x3 x4 x5 x6 x7 x8 x9 x10 x11 x12 x13 x14 r j).trans ?_
  refine reluDense_congr _ _ (fun c => ?_) j
  refine (layer6 x0 x1 x2 x3 x4 x5 x6 x7 x8 x9 x10 x11 x12 r c).trans ?_
  refine reluDense_congr _ _ (fun c' => ?_) c
  refine (layer5 x0 x1 x2 x3 x4 x5 x6 x7 x8 x9 x10 r c').trans ?_
  refine reluDense_congr _ _ (fun c'' => ?_) c'
  refine (layer4 x0 x1 x2 x3 x4 x5 x6 x7 x8 r c'').trans ?_
  refine reluDense_congr _ _ (fun c''' => ?_) c''
  exact stage3 x0 x1 x2 x3 x4 x5 x6 r c'''

/-- **The reference's result is the network, row by row**: its last stage — the last dense layer of stage 7 put through
    `1 / (1 + e^(-z))` with the float word of 1 — is `G` of the argument arrays. -/
theorem result_eq (x0 : (⟨S262144x168, .f32⟩ : BufTy).Contents (Elt Ideal)) (x1 : (⟨S84x168, .f32⟩ : BufTy).Contents (Elt Ideal)) (x2 : (⟨S84, .f32⟩ : BufTy).Contents (Elt Ideal)) (x3 : (⟨S42x84, .f32⟩ : BufTy).Contents (Elt Ideal)) (x4 : (⟨S42, .f32⟩ : BufTy).Contents (Elt Ideal)) (x5 : (⟨S21x42, .f32⟩ : BufTy).Contents (Elt Ideal)) (x6 : (⟨S21, .f32⟩ : BufTy).Contents (Elt Ideal)) (x7 : (⟨S12x21, .f32⟩ : BufTy).Contents (Elt Ideal)) (x8 : (⟨S12, .f32⟩ : BufTy).Contents (Elt Ideal)) (x9 : (⟨S10x12, .f32⟩ : BufTy).Contents (Elt Ideal)) (x10 : (⟨S10, .f32⟩ : BufTy).Contents (Elt Ideal)) (x11 : (⟨S5x10, .f32⟩ : BufTy).Contents (Elt Ideal)) (x12 : (⟨S5, .f32⟩ : BufTy).Contents (Elt Ideal)) (x13 : (⟨S2x5, .f32⟩ : BufTy).Contents (Elt Ideal)) (x14 : (⟨S2, .f32⟩ : BufTy).Contents (Elt Ideal)) (x15 : (⟨S1x2, .f32⟩ : BufTy).Contents (Elt Ideal)) (x16 : (⟨S1, .f32⟩ : BufTy).Contents (Elt Ideal)) :
    val_main_v52 (F := Ideal) x0 x1 x2 x3 x4 x5 x6 x7 x8 x9 x10 x11 x12 x13 x14 x15 x16 = G x0 x1 x2 x3 x4 x5 x6 x7 x8 x9 x10 x11 x12 x13 x14 x15 x16 := by
  funext i
  obtain ⟨r, u, rfl⟩ : ∃ (r : Fin 262144) (u : Fin 1), i = ix2 r u := ⟨i 0, i 1, eq_ix2 i⟩
  rw [val_main_v52_apply, val_main_v51_apply, val_main_cst_0_apply, val_main_v50_apply, val_main_v49_apply,
    val_main_cst_apply, val_main_v48_apply, val_main_v47_apply, val_main_v46_apply, val_main_v43_apply,
    val_main_v45_apply, val_main_v44_apply]
  simp only [val_main_v42_apply]
  have e1 : ∀ c : Fin 2, lidx_main_v43 (ix2 r u) c = ix2 r c := fun c => funext fun a => Fin.ext (by
    match a with | ⟨0, _⟩ => rfl | ⟨1, _⟩ => rfl)
  have e2 : ∀ c : Fin 2, idx_main_v42 (ridx_main_v43 (ix2 r u) c) = ix2 u c := fun c => funext fun a => Fin.ext (by
    match a with | ⟨0, _⟩ => rfl | ⟨1, _⟩ => rfl)
  have e3 : idx_main_v44 (idx_main_v45 (ix2 r u)) = ix1 u := funext fun a => Fin.ext (by
    have hu := u.isLt
    match a with | ⟨0, _⟩ => show 0 = u.val; omega)
  simp only [e1, e2, e3]
  show Ideal.div (Ideal.ofBits .f32 0x3F800000#32) (Ideal.ofBits .f32 0x3F800000#32
    + Ideal.exp (-((∑ c : Fin 2, val_main_v41 (F := Ideal) x0 x1 x2 x3 x4 x5 x6 x7 x8 x9 x10 x11 x12 x13 x14 (ix2 r c) * x15 (ix2 u c)) + x16 (ix1 u)))) = _
  rw [one_f32]
  simp only [stage7]
  rfl

end Cert.ReferenceIdeal.Rows

end
-- ==== Proof.lean ====
/-
  The certificate of a multi-layer perceptron evaluated block by block.

  Both programs compute, for each of the 262144 rows of the input `x` (168 numbers), seven rectified dense layers of
  widths 84, 42, 21, 12, 10, 5, 2 — each `h ↦ max (h · Wᵀ + b, 0)` — then a dense layer of width 1 and the logistic
  function `z ↦ 1 / (1 + e^(-z))`.

  The kernel walks a grid of 64 points; point `t` holds rows `4096 t … 4096 t + 4095` of `x`, all the weights and all
  the biases (kept as rows `[1, n]`), computes every layer with a matrix product that contracts the weights' last
  axis, the last one as a product with the weight row followed by a sum along each row, and writes rows
  `4096 t … 4096 t + 4095` of the result. Its changes of float format (to bf16 before each product, and back) are the
  identity on the extended reals. The reference computes each layer on the whole array with the transposed weights,
  and spells the logistic function out as `1 / (1 + e^(-z))`.

  Since every layer acts on each row separately, both results are ONE function `G` of the argument arrays
  (Proof/MlpSpec.lean): at `(r, u)` the network's value on row `r` of `x`. The kernel's side is Proof/KernelRows.lean
  (each layer of the block at an entry), Proof/KernelBlock.lean (the stored block at an entry) and
  Proof/KernelValue.lean (the 64 blocks cover the array); the reference's side is Proof/RefRows.lean (each stage at an
  entry, and the result). No law of the extended reals beyond reading sums and maxima entry by entry is needed: the two
  sides are the same expression, so the inputs' finiteness is never used.
-/
import proofs.«114216_j49091476194058_2_alg».proof.Defs
import proofs.«114216_j49091476194058_2_alg».proof.Proof.Gen.Kernel
import proofs.«114216_j49091476194058_2_alg».proof.Proof.Gen.Kernel.Skeleton
import proofs.«114216_j49091476194058_2_alg».proof.Proof.Gen.Kernel.Launch
import proofs.«114216_j49091476194058_2_alg».proof.Proof.Gen.Kernel.Points
import proofs.«114216_j49091476194058_2_alg».proof.Proof.Gen.Kernel.Frame
import proofs.«114216_j49091476194058_2_alg».proof.Proof.Gen.KernelIdeal
import proofs.«114216_j49091476194058_2_alg».proof.Proof.Gen.KernelIdeal.Skeleton
import proofs.«114216_j49091476194058_2_alg».proof.Proof.Gen.KernelIdeal.Launch
import proofs.«114216_j49091476194058_2_alg».proof.Proof.Gen.KernelIdeal.Points
import proofs.«114216_j49091476194058_2_alg».proof.Proof.Gen.KernelIdeal.Frame
import proofs.«114216_j49091476194058_2_alg».proof.Proof.Gen.ReferenceIdeal
import proofs.«114216_j49091476194058_2_alg».proof.Proof.Gen.ReferenceIdeal.Run
import proofs.«114216_j49091476194058_2_alg».proof.Proof.Gen.ReferenceIdeal.Read
import proofs.«114216_j49091476194058_2_alg».proof.Proof.Gen.Pre_finite_inputs
import proofs.«114216_j49091476194058_2_alg».proof.Proof.KernelValue
import proofs.«114216_j49091476194058_2_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: widening back a value just narrowed to bf16 is the identity on the extended
    reals (the seventh layer's value, narrowed and at once widened before the last layer). -/
theorem preserves : Cert.preserves_Kernel_KernelIdeal := IdealRules.truncf_extf.statement _ .f32 .bf16

/-- From memories that agree on the arguments, the kernel's result array and the reference's both end at `G` of those
    arguments: the network's value row by row. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.ReferenceIdeal.Rows.result_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
